-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S4096x1024 : Shape := ⟨2, ![4096, 1024]⟩
abbrev S4096x16 : Shape := ⟨2, ![4096, 16]⟩
abbrev S1024 : Shape := ⟨1, ![1024]⟩
abbrev S32x1024 : Shape := ⟨2, ![32, 1024]⟩
abbrev S4096x32 : Shape := ⟨2, ![4096, 32]⟩
abbrev S4096 : Shape := ⟨1, ![4096]⟩
abbrev S1024x4096 : Shape := ⟨2, ![1024, 4096]⟩
abbrev S1024x64 : Shape := ⟨2, ![1024, 64]⟩
abbrev S32x4096 : Shape := ⟨2, ![32, 4096]⟩
abbrev S1024x32 : Shape := ⟨2, ![1024, 32]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S4096x16 : S_.BroadcastsInDim S4096x16 (![] : Fin 0 → Fin S4096x16.rank)
  reducesTo_S4096x16_S_d0_1 : S4096x16.ReducesTo [0, 1] S_
  bcast_S_S1024 : S_.BroadcastsInDim S1024 (![] : Fin 0 → Fin S1024.rank)
  reducesTo_S1024_S_d0 : S1024.ReducesTo [0] S_
  bcast_S_S32x1024 : S_.BroadcastsInDim S32x1024 (![] : Fin 0 → Fin S32x1024.rank)
  reducesTo_S32x1024_S_d0_1 : S32x1024.ReducesTo [0, 1] S_
  bcast_S_S4096x32 : S_.BroadcastsInDim S4096x32 (![] : Fin 0 → Fin S4096x32.rank)
  reducesTo_S4096x32_S_d0_1 : S4096x32.ReducesTo [0, 1] S_
  bcast_S_S4096 : S_.BroadcastsInDim S4096 (![] : Fin 0 → Fin S4096.rank)
  reducesTo_S4096_S_d0 : S4096.ReducesTo [0] S_
  bcast_S_S1024x64 : S_.BroadcastsInDim S1024x64 (![] : Fin 0 → Fin S1024x64.rank)
  reducesTo_S1024x64_S_d0_1 : S1024x64.ReducesTo [0, 1] S_
  bcast_S_S32x4096 : S_.BroadcastsInDim S32x4096 (![] : Fin 0 → Fin S32x4096.rank)
  reducesTo_S32x4096_S_d0_1 : S32x4096.ReducesTo [0, 1] S_
  bcast_S_S1024x32 : S_.BroadcastsInDim S1024x32 (![] : Fin 0 → Fin S1024x32.rank)
  reducesTo_S1024x32_S_d0_1 : S1024x32.ReducesTo [0, 1] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg9 : FVec F S4096 .f32) (main_arg10 : FVec F S32x4096 .f32) (main_arg11 : FVec F S1024x32 .f32) (main_arg12 : FVec F S1024 .f32) (main_v33 : IVec S_ 1) : IVec S_ 1 :=
  let main_v34 : FVec F S4096 .f32 := Host.absf main_arg9
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S32x4096 .f32 := Host.absf main_arg10
  let main_cst_14 : FVec F S_ .f32 := constant S_ .f32 0x7F800000#32
  let main_v40 : FVec F S32x4096 .f32 := broadcastInDim S32x4096 ![] bcast_S_S32x4096 main_cst_14
  let main_v41 : IVec S32x4096 1 := cmpf .olt main_v39 main_v40
  let main_c_15 : IVec S_ 1 := constantI S_ 1 1#1
  let main_v42 : IVec S_ 1 := (fun x v => Host.reduce IntOp.andi x v reducesTo_S32x4096_S_d0_1 h_S_) main_v41 main_c_15
  let main_v43 : IVec S_ 1 := andi main_v38 main_v42
  let main_v44 : FVec F S1024x32 .f32 := Host.absf main_arg11
  let main_cst_16 : FVec F S_ .f32 := constant S_ .f32 0x7F800000#32
  let main_v45 : FVec F S1024x32 .f32 := broadcastInDim S1024x32 ![] bcast_S_S1024x32 main_cst_16
  let main_v46 : IVec S1024x32 1 := cmpf .olt main_v44 main_v45
  let main_c_17 : IVec S_ 1 := constantI S_ 1 1#1
  let main_v47 : IVec S_ 1 := (fun x v => Host.reduce IntOp.andi x v reducesTo_S1024x32_S_d0_1 h_S_) main_v46 main_c_17
  let main_v48 : IVec S_ 1 := andi main_v43 main_v47
  let main_v49 : FVec F S1024 .f32 := Host.absf main_arg12
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg5 : FVec F S4096x32 .f32) (main_arg6 : FVec F S4096 .f32) (main_arg8 : FVec F S1024x64 .f32) (main_arg9 : FVec F S4096 .f32) (main_arg10 : FVec F S32x4096 .f32) (main_arg11 : FVec F S1024x32 .f32) (main_arg12 : FVec F S1024 .f32) (main_v13 : IVec S_ 1) (main_v16 : IVec S32x1024 1) : IVec S_ 1 :=
  let main_c_5 : IVec S_ 1 := constantI S_ 1 1#1
  let main_v17 : IVec S_ 1 := (fun x v => Host.reduce IntOp.andi x v reducesTo_S32x1024_S_d0_1 h_S_) main_v16 main_c_5
  let main_v18 : IVec S_ 1 := andi main_v13 main_v17
  let main_v19 : FVec F S4096x32 .f32 := Host.absf main_arg5
  let main_cst_6 : FVec F S_ .f32 := constant S_ .f32 0x7F800000#32
  let main_v20 : FVec F S4096x32 .f32 := broadcastInDim S4096x32 ![] bcast_S_S4096x32 main_cst_6
  let main_v21 : IVec S4096x32 1 := cmpf .olt main_v19 main_v20
  let main_c_7 : IVec S_ 1 := constantI S_ 1 1#1
  let main_v22 : IVec S_ 1 := (fun x v => Host.reduce IntOp.andi x v reducesTo_S4096x32_S_d0_1 h_S_) main_v21 main_c_7
  let main_v23 : IVec S_ 1 := andi main_v18 main_v22
  let main_v24 : FVec F S4096 .f32 := Host.absf main_arg6
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S1024x64 .f32 := Host.absf main_arg8
  let main_cst_10 : FVec F S_ .f32 := constant S_ .f32 0x7F800000#32
  let main_v30 : FVec F S1024x64 .f32 := broadcastInDim S1024x64 ![] bcast_S_S1024x64 main_cst_10
  let main_v31 : IVec S1024x64 1 := cmpf .olt main_v29 main_v30
  let main_c_11 : IVec S_ 1 := constantI S_ 1 1#1
  let main_v32 : IVec S_ 1 := (fun x v => Host.reduce IntOp.andi x v reducesTo_S1024x64_S_d0_1 h_S_) main_v31 main_c_11
  let main_v33 : IVec S_ 1 := andi main_v28 main_v32
  fn_part2 (F := F) main_arg9 main_arg10 main_arg11 main_arg12 main_v33

def fn {F : FTy → Type} [FloatOps F] (main_arg0 : FVec F S16384x1024 .f32) (main_arg1 : IVec S4096x1024 32) (main_arg2 : FVec F S4096x16 .f32) (main_arg3 : FVec F S1024 .f32) (main_arg4 : FVec F S32x1024 .f32) (main_arg5 : FVec F S4096x32 .f32) (main_arg6 : FVec F S4096 .f32) (main_arg7 : IVec S1024x4096 32) (main_arg8 : FVec F S1024x64 .f32) (main_arg9 : FVec F S4096 .f32) (main_arg10 : FVec F S32x4096 .f32) (main_arg11 : FVec F S1024x32 .f32) (main_arg12 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S4096x16 .f32 := Host.absf main_arg2
  let main_cst_0 : FVec F S_ .f32 := constant S_ .f32 0x7F800000#32
  let main_v5 : FVec F S4096x16 .f32 := broadcastInDim S4096x16 ![] bcast_S_S4096x16 main_cst_0
  let main_v6 : IVec S4096x16 1 := cmpf .olt main_v4 main_v5
  let main_c_1 : IVec S_ 1 := constantI S_ 1 1#1
  let main_v7 : IVec S_ 1 := (fun x v => Host.reduce IntOp.andi x v reducesTo_S4096x16_S_d0_1 h_S_) main_v6 main_c_1
  let main_v8 : IVec S_ 1 := andi main_v3 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S32x1024 .f32 := Host.absf main_arg4
  let main_cst_4 : FVec F S_ .f32 := constant S_ .f32 0x7F800000#32
  let main_v15 : FVec F S32x1024 .f32 := broadcastInDim S32x1024 ![] bcast_S_S32x1024 main_cst_4
  let main_v16 : IVec S32x1024 1 := cmpf .olt main_v14 main_v15
  fn_part1 (F := F) main_arg5 main_arg6 main_arg8 main_arg9 main_arg10 main_arg11 main_arg12 main_v13 main_v16
-- ==== Kernel.lean ====
abbrev S16384x1024 : Shape := ⟨2, ![16384, 1024]⟩
abbrev S4096x1024 : Shape := ⟨2, ![4096, 1024]⟩
abbrev S4096x16 : Shape := ⟨2, ![4096, 16]⟩
abbrev S1024 : Shape := ⟨1, ![1024]⟩
abbrev S32x1024 : Shape := ⟨2, ![32, 1024]⟩
abbrev S4096x32 : Shape := ⟨2, ![4096, 32]⟩
abbrev S4096 : Shape := ⟨1, ![4096]⟩
abbrev S1024x4096 : Shape := ⟨2, ![1024, 4096]⟩
abbrev S1024x64 : Shape := ⟨2, ![1024, 64]⟩
abbrev S32x4096 : Shape := ⟨2, ![32, 4096]⟩
abbrev S1024x32 : Shape := ⟨2, ![1024, 32]⟩
abbrev S4096x16x64 : Shape := ⟨3, ![4096, 16, 64]⟩
abbrev S4096x16x1 : Shape := ⟨3, ![4096, 16, 1]⟩
abbrev S1024x64x64 : Shape := ⟨3, ![1024, 64, 64]⟩
abbrev S1024x64x1 : Shape := ⟨3, ![1024, 64, 1]⟩
abbrev S1x4096 : Shape := ⟨2, ![1, 4096]⟩
abbrev S1x1024 : Shape := ⟨2, ![1, 1024]⟩
abbrev S16384x16x64 : Shape := ⟨3, ![16384, 16, 64]⟩
abbrev S_ : Shape := ⟨0, ![]⟩
abbrev S16384x16 : Shape := ⟨2, ![16384, 16]⟩
abbrev S16384x16x1 : Shape := ⟨3, ![16384, 16, 1]⟩
abbrev S128x1024 : Shape := ⟨2, ![128, 1024]⟩
abbrev S128x4096 : Shape := ⟨2, ![128, 4096]⟩
abbrev S128x32 : Shape := ⟨2, ![128, 32]⟩
abbrev S128x64x64 : Shape := ⟨3, ![128, 64, 64]⟩
abbrev S128x64 : Shape := ⟨2, ![128, 64]⟩
abbrev S128x64x1 : Shape := ⟨3, ![128, 64, 1]⟩

abbrev nBuf : Space → Nat
  | .hbm => 71
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S4096x1024, .i32⟩
  | .hbm, ⟨2, _⟩ => ⟨S4096x16, .f32⟩
  | .hbm, ⟨3, _⟩ => ⟨S1024, .f32⟩
  | .hbm, ⟨4, _⟩ => ⟨S32x1024, .f32⟩
  | .hbm, ⟨5, _⟩ => ⟨S4096x32, .f32⟩
  | .hbm, ⟨6, _⟩ => ⟨S4096, .f32⟩
  | .hbm, ⟨7, _⟩ => ⟨S1024x4096, .i32⟩
  | .hbm, ⟨8, _⟩ => ⟨S1024x64, .f32⟩
  | .hbm, ⟨9, _⟩ => ⟨S4096, .f32⟩
  | .hbm, ⟨10, _⟩ => ⟨S32x4096, .f32⟩
  | .hbm, ⟨11, _⟩ => ⟨S1024x32, .f32⟩
  | .hbm, ⟨12, _⟩ => ⟨S1024, .f32⟩
  | .hbm, ⟨13, _⟩ => ⟨S4096x1024, .f32⟩
  | .hbm, ⟨14, _⟩ => ⟨S4096x16x64, .f32⟩
  | .hbm, ⟨15, _⟩ => ⟨S4096x16x1, .f32⟩
  | .hbm, ⟨16, _⟩ => ⟨S4096x16x64, .f32⟩
  | .hbm, ⟨17, _⟩ => ⟨S4096x16x64, .f32⟩
  | .hbm, ⟨18, _⟩ => ⟨S4096x1024, .f32⟩
  | .hbm, ⟨19, _⟩ => ⟨S1024x4096, .f32⟩
  | .hbm, ⟨20, _⟩ => ⟨S1024x4096, .bf16⟩
  | .hbm, ⟨21, _⟩ => ⟨S1024x4096, .f32⟩
  | .hbm, ⟨22, _⟩ => ⟨S1024x64x64, .f32⟩
  | .hbm, ⟨23, _⟩ => ⟨S1024x64x1, .f32⟩
  | .hbm, ⟨24, _⟩ => ⟨S1024x64x64, .f32⟩
  | .hbm, ⟨25, _⟩ => ⟨S1024x64x64, .f32⟩
  | .hbm, ⟨26, _⟩ => ⟨S1024x4096, .f32⟩
  | .hbm, ⟨27, _⟩ => ⟨S4096x1024, .f32⟩
  | .hbm, ⟨28, _⟩ => ⟨S4096x1024, .bf16⟩
  | .hbm, ⟨29, _⟩ => ⟨S1024x32, .f32⟩
  | .hbm, ⟨30, _⟩ => ⟨S1024x32, .bf16⟩
  | .hbm, ⟨31, _⟩ => ⟨S32x4096, .f32⟩
  | .hbm, ⟨32, _⟩ => ⟨S32x4096, .bf16⟩
  | .hbm, ⟨33, _⟩ => ⟨S4096x32, .f32⟩
  | .hbm, ⟨34, _⟩ => ⟨S4096x32, .bf16⟩
  | .hbm, ⟨35, _⟩ => ⟨S32x1024, .f32⟩
  | .hbm, ⟨36, _⟩ => ⟨S32x1024, .bf16⟩
  | .hbm, ⟨37, _⟩ => ⟨S1x4096, .f32⟩
  | .hbm, ⟨38, _⟩ => ⟨S1x1024, .f32⟩
  | .hbm, ⟨39, _⟩ => ⟨S1x4096, .f32⟩
  | .hbm, ⟨40, _⟩ => ⟨S1x1024, .f32⟩
  | .hbm, ⟨41, _⟩ => ⟨S16384x1024, .f32⟩
  | .hbm, ⟨42, _⟩ => ⟨S16384x1024, .f32⟩
  | .hbm, ⟨43, _⟩ => ⟨S16384x16x64, .f32⟩
  | .hbm, ⟨44, _⟩ => ⟨S16384x16x64, .f32⟩
  | .hbm, ⟨45, _⟩ => ⟨S_, .f32⟩
  | .hbm, ⟨46, _⟩ => ⟨S16384x16, .f32⟩
  | .hbm, ⟨47, _⟩ => ⟨S16384x16x1, .f32⟩
  | .hbm, ⟨48, _⟩ => ⟨S_, .f32⟩
  | .hbm, ⟨49, _⟩ => ⟨S16384x16x1, .f32⟩
  | .hbm, ⟨50, _⟩ => ⟨S16384x16x1, .f32⟩
  | .hbm, ⟨51, _⟩ => ⟨S_, .f32⟩
  | .hbm, ⟨52, _⟩ => ⟨S16384x16x1, .f32⟩
  | .hbm, ⟨53, _⟩ => ⟨S16384x16x1, .f32⟩
  | .hbm, ⟨54, _⟩ => ⟨S16384x16x64, .f32⟩
  | .hbm, ⟨55, _⟩ => ⟨S16384x16x64, .f32⟩
  | .hbm, ⟨56, _⟩ => ⟨S16384x16x64, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S16384x16x64, .f32⟩
  | .hbm, ⟨61, _⟩ => ⟨S16384x16x64, .f32⟩
  | .hbm, ⟨62, _⟩ => ⟨S_, .f32⟩
  | .hbm, ⟨63, _⟩ => ⟨S16384x16x64, .f32⟩
  | .hbm, ⟨64, _⟩ => ⟨S16384x16x64, .f32⟩
  | .hbm, ⟨65, _⟩ => ⟨S16384x16x64, .f32⟩
  | .hbm, ⟨66, _⟩ => ⟨S16384x16x64, .f32⟩
  | .hbm, ⟨67, _⟩ => ⟨S16384x1024, .f32⟩
  | .hbm, ⟨68, _⟩ => ⟨S16384x1024, .bf16⟩
  | .hbm, ⟨69, _⟩ => ⟨S16384x1024, .bf16⟩
  | .hbm, ⟨70, _⟩ => ⟨S16384x1024, .f32⟩
  | .local _ .vmem, ⟨0, _⟩ => ⟨S128x1024, .bf16⟩
  | .local _ .vmem, ⟨1, _⟩ => ⟨S128x1024, .bf16⟩
  | .local _ .vmem, ⟨2, _⟩ => ⟨S128x1024, .bf16⟩
  | .local _ .vmem, ⟨3, _⟩ => ⟨S128x1024, .bf16⟩
  | .local _ .vmem, ⟨4, _⟩ => ⟨S1024x4096, .bf16⟩
  | .local _ .vmem, ⟨5, _⟩ => ⟨S1024x32, .bf16⟩
  | .local _ .vmem, ⟨6, _⟩ => ⟨S32x4096, .bf16⟩
  | .local _ .vmem, ⟨7, _⟩ => ⟨S1x4096, .f32⟩
  | .local _ .vmem, ⟨8, _⟩ => ⟨S1x4096, .f32⟩
  | .local _ .vmem, ⟨9, _⟩ => ⟨S4096x1024, .bf16⟩
  | .local _ .vmem, ⟨10, _⟩ => ⟨S4096x32, .bf16⟩
  | .local _ .vmem, ⟨11, _⟩ => ⟨S32x1024, .bf16⟩
  | .local _ .vmem, ⟨12, _⟩ => ⟨S1x1024, .f32⟩
  | .local _ .vmem, ⟨13, _⟩ => ⟨S128x1024, .f32⟩
  | .local _ .vmem, ⟨14, _⟩ => ⟨S128x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst : Ref sig .tc := ⟨.hbm, 45, rfl⟩
abbrev main_v32 : Ref sig .tc := ⟨.hbm, 46, rfl⟩
abbrev main_v33 : Ref sig .tc := ⟨.hbm, 47, rfl⟩
abbrev main_cst_0 : Ref sig .tc := ⟨.hbm, 48, rfl⟩
abbrev main_v34 : Ref sig .tc := ⟨.hbm, 49, rfl⟩
abbrev main_v35 : Ref sig .tc := ⟨.hbm, 50, rfl⟩
abbrev main_cst_1 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_2 : Ref sig .tc := ⟨.hbm, 57, rfl⟩
abbrev main_cst_3 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x32 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4096x32 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S128x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S4096x1024_S4096x16x64 : S4096x1024.ShapeCasts S4096x16x64
  bcast_S4096x16_S4096x16x1_0_1 : S4096x16.BroadcastsInDim S4096x16x1 (![0, 1] : Fin 2 → Fin S4096x16x1.rank)
  bcast_S4096x16x1_S4096x16x64_0_1_2 : S4096x16x1.BroadcastsInDim S4096x16x64 (![0, 1, 2] : Fin 3 → Fin S4096x16x64.rank)
  shapeCasts_S4096x16x64_S4096x1024 : S4096x16x64.ShapeCasts S4096x1024
  transposes_S4096x1024_S1024x4096_1_0 : S4096x1024.Transposes [1, 0] S1024x4096
  bitsLt_bf16_f32 : FTy.bits .bf16 < FTy.bits .f32
  shapeCasts_S1024x4096_S1024x64x64 : S1024x4096.ShapeCasts S1024x64x64
  bcast_S1024x64_S1024x64x1_0_1 : S1024x64.BroadcastsInDim S1024x64x1 (![0, 1] : Fin 2 → Fin S1024x64x1.rank)
  bcast_S1024x64x1_S1024x64x64_0_1_2 : S1024x64x1.BroadcastsInDim S1024x64x64 (![0, 1, 2] : Fin 3 → Fin S1024x64x64.rank)
  shapeCasts_S1024x64x64_S1024x4096 : S1024x64x64.ShapeCasts S1024x4096
  transposes_S1024x4096_S4096x1024_1_0 : S1024x4096.Transposes [1, 0] S4096x1024
  transposes_S32x1024_S1024x32_1_0 : S32x1024.Transposes [1, 0] S1024x32
  transposes_S4096x32_S32x4096_1_0 : S4096x32.Transposes [1, 0] S32x4096
  transposes_S32x4096_S4096x32_1_0 : S32x4096.Transposes [1, 0] S4096x32
  transposes_S1024x32_S32x1024_1_0 : S1024x32.Transposes [1, 0] S32x1024
  shapeCasts_S4096_S1x4096 : S4096.ShapeCasts S1x4096
  shapeCasts_S1024_S1x1024 : S1024.ShapeCasts S1x1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  shapeCasts_S16384x1024_S16384x16x64 : S16384x1024.ShapeCasts S16384x16x64
  reducesTo_S16384x16x64_S16384x16_d2 : S16384x16x64.ReducesTo [2] S16384x16
  h_S_ : 0 < S_.numel
  bcast_S16384x16_S16384x16x1_0_1 : S16384x16.BroadcastsInDim S16384x16x1 (![0, 1] : Fin 2 → Fin S16384x16x1.rank)
  bcast_S_S16384x16x1 : S_.BroadcastsInDim S16384x16x1 (![] : Fin 0 → Fin S16384x16x1.rank)
  bcast_S16384x16x1_S16384x16x64_0_1_2 : S16384x16x1.BroadcastsInDim S16384x16x64 (![0, 1, 2] : Fin 3 → Fin S16384x16x64.rank)
  bcast_S_S16384x16x64 : S_.BroadcastsInDim S16384x16x64 (![] : Fin 0 → Fin S16384x16x64.rank)
  shapeCasts_S16384x16x64_S16384x1024 : S16384x16x64.ShapeCasts S16384x1024
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  inb_S32x4096_S32x4096_0_0 : ∀ a, (![0, 0] : Fin 2 → Nat) a + S32x4096.size a ≤ S32x4096.size a
  h_S32x4096 : 0 < S32x4096.numel
  shapeCasts_S32x4096_S32x4096 : S32x4096.ShapeCasts S32x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  shapeCasts_S128x4096_S128x64x64 : S128x4096.ShapeCasts S128x64x64
  reduces_S128x64x64_S128x64 : S128x64x64.Reduces [2] S128x64
  shapeCasts_S128x64_S128x64x1 : S128x64.ShapeCasts S128x64x1
  broadcasts_S128x64x1_S128x64x64 : S128x64x1.Broadcasts S128x64x64
  shapeCasts_S128x64x64_S128x4096 : S128x64x64.ShapeCasts S128x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S4096x32_S4096x32_0_0 : ∀ a, (![0, 0] : Fin 2 → Nat) a + S4096x32.size a ≤ S4096x32.size a
  h_S4096x32 : 0 < S4096x32.numel
  shapeCasts_S4096x32_S4096x32 : S4096x32.ShapeCasts S4096x32
  inb_S32x1024_S32x1024_0_0 : ∀ a, (![0, 0] : Fin 2 → Nat) a + S32x1024.size a ≤ S32x1024.size a
  h_S32x1024 : 0 < S32x1024.numel
  shapeCasts_S32x1024_S32x1024 : S32x1024.ShapeCasts S32x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S128x1024 : S1x1024.Broadcasts S128x1024
  dot_S128x1024_S1024x4096_S128x4096_1_0_0_1_n_n_wf : DotDims.WF S128x1024 S1024x4096 S128x4096 [1] [0] [0] [1] [] []
  dot_S128x1024_S1024x32_S128x32_1_0_0_1_n_n_wf : DotDims.WF S128x1024 S1024x32 S128x32 [1] [0] [0] [1] [] []
  dot_S128x32_S32x4096_S128x4096_1_0_0_1_n_n_wf : DotDims.WF S128x32 S32x4096 S128x4096 [1] [0] [0] [1] [] []
  dot_S128x4096_S4096x1024_S128x1024_1_0_0_1_n_n_wf : DotDims.WF S128x4096 S4096x1024 S128x1024 [1] [0] [0] [1] [] []
  dot_S128x4096_S4096x32_S128x32_1_0_0_1_n_n_wf : DotDims.WF S128x4096 S4096x32 S128x32 [1] [0] [0] [1] [] []
  dot_S128x32_S32x1024_S128x1024_1_0_0_1_n_n_wf : DotDims.WF S128x32 S32x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S16384x1024.size a
  hwx0_0 : ∀ i : grid0.Coords, EltTy.bits .bf16 = 32 ∨ (Rect.block (s := S16384x1024) S128x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S16384x1024.size a
  hwx0_1 : ∀ i : grid0.Coords, EltTy.bits .bf16 = 32 ∨ (Rect.block (s := S16384x1024) S128x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x4096.size a ≤ S1024x4096.size a
  hwx0_2 : ∀ i : grid0.Coords, EltTy.bits .bf16 = 32 ∨ (Rect.block (s := S1024x4096) S1024x4096.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x32.size a ≤ S1024x32.size a
  hwx0_3 : ∀ i : grid0.Coords, EltTy.bits .bf16 = 32 ∨ (Rect.block (s := S1024x32) S1024x32.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x4096.size a ≤ S32x4096.size a
  hwx0_4 : ∀ i : grid0.Coords, EltTy.bits .bf16 = 32 ∨ (Rect.block (s := S32x4096) S32x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x4096.size a ≤ S1x4096.size a
  hwx0_6 : ∀ i : grid0.Coords, EltTy.bits .f32 = 32 ∨ (Rect.block (s := S1x4096) S1x4096.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4096x1024.size a ≤ S4096x1024.size a
  hwx0_7 : ∀ i : grid0.Coords, EltTy.bits .bf16 = 32 ∨ (Rect.block (s := S4096x1024) S4096x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S4096x32.size a ≤ S4096x32.size a
  hwx0_8 : ∀ i : grid0.Coords, EltTy.bits .bf16 = 32 ∨ (Rect.block (s := S4096x32) S4096x32.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S32x1024.size a ≤ S32x1024.size a
  hwx0_9 : ∀ i : grid0.Coords, EltTy.bits .bf16 = 32 ∨ (Rect.block (s := S32x1024) S32x1024.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1024.size a ≤ S1x1024.size a
  hwx0_10 : ∀ i : grid0.Coords, EltTy.bits .f32 = 32 ∨ (Rect.block (s := S1x1024) S1x1024.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S128x1024.size a ≤ S16384x1024.size a
  hwx0_11 : ∀ i : grid0.Coords, EltTy.bits .f32 = 32 ∨ (Rect.block (s := S16384x1024) S128x1024.size (cc0_transform_11 i) (hinb0_11 i)).WholeWords (EltTy.packing .f32)

variable [Facts₀]

def dot_S128x1024_S1024x4096_S128x4096_1_0_0_1_n_n : DotDims S128x1024 S1024x4096 S128x4096 where
  lhsContracting := [1]
  rhsContracting := [0]
  lhsNonContracting := [0]
  rhsNonContracting := [1]
  lhsBatch := []
  rhsBatch := []
  wf := dot_S128x1024_S1024x4096_S128x4096_1_0_0_1_n_n_wf
def dot_S128x1024_S1024x32_S128x32_1_0_0_1_n_n : DotDims S128x1024 S1024x32 S128x32 where
  lhsContracting := [1]
  rhsContracting := [0]
  lhsNonContracting := [0]
  rhsNonContracting := [1]
  lhsBatch := []
  rhsBatch := []
  wf := dot_S128x1024_S1024x32_S128x32_1_0_0_1_n_n_wf
def dot_S128x32_S32x4096_S128x4096_1_0_0_1_n_n : DotDims S128x32 S32x4096 S128x4096 where
  lhsContracting := [1]
  rhsContracting := [0]
  lhsNonContracting := [0]
  rhsNonContracting := [1]
  lhsBatch := []
  rhsBatch := []
  wf := dot_S128x32_S32x4096_S128x4096_1_0_0_1_n_n_wf
def dot_S128x4096_S4096x1024_S128x1024_1_0_0_1_n_n : DotDims S128x4096 S4096x1024 S128x1024 where
  lhsContracting := [1]
  rhsContracting := [0]
  lhsNonContracting := [0]
  rhsNonContracting := [1]
  lhsBatch := []
  rhsBatch := []
  wf := dot_S128x4096_S4096x1024_S128x1024_1_0_0_1_n_n_wf
def dot_S128x4096_S4096x32_S128x32_1_0_0_1_n_n : DotDims S128x4096 S4096x32 S128x32 where
  lhsContracting := [1]
  rhsContracting := [0]
  lhsNonContracting := [0]
  rhsNonContracting := [1]
  lhsBatch := []
  rhsBatch := []
  wf := dot_S128x4096_S4096x32_S128x32_1_0_0_1_n_n_wf
def dot_S128x32_S32x1024_S128x1024_1_0_0_1_n_n : DotDims S128x32 S32x1024 S128x1024 where
  lhsContracting := [1]
  rhsContracting := [0]
  lhsNonContracting := [0]
  rhsNonContracting := [1]
  lhsBatch := []
  rhsBatch := []
  wf := dot_S128x32_S32x1024_S128x1024_1_0_0_1_n_n_wf

abbrev win0_0 : Pipeline.Window sig grid0 :=
  Pipeline.Window.ofSpec (Memref.whole main_v45) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v46) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1024x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1024x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S32x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S1x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v15) S4096x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v21) S4096x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v23) S32x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v25) S1x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v47) S128x1024.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S4096x1024 : Shape := ⟨2, ![4096, 1024]⟩
abbrev S4096x16 : Shape := ⟨2, ![4096, 16]⟩
abbrev S1024 : Shape := ⟨1, ![1024]⟩
abbrev S32x1024 : Shape := ⟨2, ![32, 1024]⟩
abbrev S4096x32 : Shape := ⟨2, ![4096, 32]⟩
abbrev S4096 : Shape := ⟨1, ![4096]⟩
abbrev S1024x4096 : Shape := ⟨2, ![1024, 4096]⟩
abbrev S1024x64 : Shape := ⟨2, ![1024, 64]⟩
abbrev S32x4096 : Shape := ⟨2, ![32, 4096]⟩
abbrev S1024x32 : Shape := ⟨2, ![1024, 32]⟩
abbrev S1x1024 : Shape := ⟨2, ![1, 1024]⟩
abbrev S16384x16x64 : Shape := ⟨3, ![16384, 16, 64]⟩
abbrev S_ : Shape := ⟨0, ![]⟩
abbrev S16384x16 : Shape := ⟨2, ![16384, 16]⟩
abbrev S16384x16x1 : Shape := ⟨3, ![16384, 16, 1]⟩
abbrev S4096x16x64 : Shape := ⟨3, ![4096, 16, 64]⟩
abbrev S4096x16x1 : Shape := ⟨3, ![4096, 16, 1]⟩
abbrev S16384x4096 : Shape := ⟨2, ![16384, 4096]⟩
abbrev S16384x32 : Shape := ⟨2, ![16384, 32]⟩
abbrev S1x4096 : Shape := ⟨2, ![1, 4096]⟩
abbrev S16384x64x64 : Shape := ⟨3, ![16384, 64, 64]⟩
abbrev S16384x64 : Shape := ⟨2, ![16384, 64]⟩
abbrev S16384x64x1 : Shape := ⟨3, ![16384, 64, 1]⟩
abbrev S1024x64x64 : Shape := ⟨3, ![1024, 64, 64]⟩
abbrev S1024x64x1 : Shape := ⟨3, ![1024, 64, 1]⟩

abbrev nBuf : Space → Nat
  | .hbm => 112
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4096x1024, .i32⟩
  | .hbm, ⟨2, _⟩ => ⟨S4096x16, .f32⟩
  | .hbm, ⟨3, _⟩ => ⟨S1024, .f32⟩
  | .hbm, ⟨4, _⟩ => ⟨S32x1024, .f32⟩
  | .hbm, ⟨5, _⟩ => ⟨S4096x32, .f32⟩
  | .hbm, ⟨6, _⟩ => ⟨S4096, .f32⟩
  | .hbm, ⟨7, _⟩ => ⟨S1024x4096, .i32⟩
  | .hbm, ⟨8, _⟩ => ⟨S1024x64, .f32⟩
  | .hbm, ⟨9, _⟩ => ⟨S4096, .f32⟩
  | .hbm, ⟨10, _⟩ => ⟨S32x4096, .f32⟩
  | .hbm, ⟨11, _⟩ => ⟨S1024x32, .f32⟩
  | .hbm, ⟨12, _⟩ => ⟨S1024, .f32⟩
  | .hbm, ⟨13, _⟩ => ⟨S1x1024, .f32⟩
  | .hbm, ⟨14, _⟩ => ⟨S16384x1024, .f32⟩
  | .hbm, ⟨15, _⟩ => ⟨S16384x1024, .f32⟩
  | .hbm, ⟨16, _⟩ => ⟨S16384x16x64, .f32⟩
  | .hbm, ⟨17, _⟩ => ⟨S16384x16x64, .f32⟩
  | .hbm, ⟨18, _⟩ => ⟨S_, .f32⟩
  | .hbm, ⟨19, _⟩ => ⟨S16384x16, .f32⟩
  | .hbm, ⟨20, _⟩ => ⟨S16384x16x1, .f32⟩
  | .hbm, ⟨21, _⟩ => ⟨S_, .f32⟩
  | .hbm, ⟨22, _⟩ => ⟨S16384x16x1, .f32⟩
  | .hbm, ⟨23, _⟩ => ⟨S16384x16x1, .f32⟩
  | .hbm, ⟨24, _⟩ => ⟨S_, .f32⟩
  | .hbm, ⟨25, _⟩ => ⟨S16384x16x1, .f32⟩
  | .hbm, ⟨26, _⟩ => ⟨S16384x16x1, .f32⟩
  | .hbm, ⟨27, _⟩ => ⟨S16384x16x64, .f32⟩
  | .hbm, ⟨28, _⟩ => ⟨S16384x16x64, .f32⟩
  | .hbm, ⟨29, _⟩ => ⟨S16384x16x64, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S16384x16x64, .f32⟩
  | .hbm, ⟨34, _⟩ => ⟨S16384x16x64, .f32⟩
  | .hbm, ⟨35, _⟩ => ⟨S_, .f32⟩
  | .hbm, ⟨36, _⟩ => ⟨S16384x16x64, .f32⟩
  | .hbm, ⟨37, _⟩ => ⟨S16384x16x64, .f32⟩
  | .hbm, ⟨38, _⟩ => ⟨S16384x16x64, .f32⟩
  | .hbm, ⟨39, _⟩ => ⟨S16384x16x64, .f32⟩
  | .hbm, ⟨40, _⟩ => ⟨S16384x1024, .f32⟩
  | .hbm, ⟨41, _⟩ => ⟨S4096x1024, .f32⟩
  | .hbm, ⟨42, _⟩ => ⟨S4096x16x64, .f32⟩
  | .hbm, ⟨43, _⟩ => ⟨S4096x16x1, .f32⟩
  | .hbm, ⟨44, _⟩ => ⟨S4096x16x64, .f32⟩
  | .hbm, ⟨45, _⟩ => ⟨S4096x16x64, .f32⟩
  | .hbm, ⟨46, _⟩ => ⟨S4096x1024, .f32⟩
  | .hbm, ⟨47, _⟩ => ⟨S16384x4096, .f32⟩
  | .hbm, ⟨48, _⟩ => ⟨S16384x32, .f32⟩
  | .hbm, ⟨49, _⟩ => ⟨S16384x4096, .f32⟩
  | .hbm, ⟨50, _⟩ => ⟨S16384x4096, .f32⟩
  | .hbm, ⟨51, _⟩ => ⟨S1x4096, .f32⟩
  | .hbm, ⟨52, _⟩ => ⟨S16384x4096, .f32⟩
  | .hbm, ⟨53, _⟩ => ⟨S16384x4096, .f32⟩
  | .hbm, ⟨54, _⟩ => ⟨S16384x4096, .f32⟩
  | .hbm, ⟨55, _⟩ => ⟨S16384x4096, .f32⟩
  | .hbm, ⟨56, _⟩ => ⟨S_, .f32⟩
  | .hbm, ⟨57, _⟩ => ⟨S16384x4096, .f32⟩
  | .hbm, ⟨58, _⟩ => ⟨S16384x4096, .f32⟩
  | .hbm, ⟨59, _⟩ => ⟨S16384x4096, .f32⟩
  | .hbm, ⟨60, _⟩ => ⟨S_, .f32⟩
  | .hbm, ⟨61, _⟩ => ⟨S16384x4096, .f32⟩
  | .hbm, ⟨62, _⟩ => ⟨S16384x4096, .f32⟩
  | .hbm, ⟨63, _⟩ => ⟨S16384x4096, .f32⟩
  | .hbm, ⟨64, _⟩ => ⟨S_, .f32⟩
  | .hbm, ⟨65, _⟩ => ⟨S16384x4096, .f32⟩
  | .hbm, ⟨66, _⟩ => ⟨S16384x4096, .f32⟩
  | .hbm, ⟨67, _⟩ => ⟨S_, .f32⟩
  | .hbm, ⟨68, _⟩ => ⟨S16384x4096, .f32⟩
  | .hbm, ⟨69, _⟩ => ⟨S16384x4096, .f32⟩
  | .hbm, ⟨70, _⟩ => ⟨S16384x4096, .f32⟩
  | .hbm, ⟨71, _⟩ => ⟨S1x4096, .f32⟩
  | .hbm, ⟨72, _⟩ => ⟨S16384x4096, .f32⟩
  | .hbm, ⟨73, _⟩ => ⟨S16384x4096, .f32⟩
  | .hbm, ⟨74, _⟩ => ⟨S16384x64x64, .f32⟩
  | .hbm, ⟨75, _⟩ => ⟨S16384x64x64, .f32⟩
  | .hbm, ⟨76, _⟩ => ⟨S_, .f32⟩
  | .hbm, ⟨77, _⟩ => ⟨S16384x64, .f32⟩
  | .hbm, ⟨78, _⟩ => ⟨S16384x64x1, .f32⟩
  | .hbm, ⟨79, _⟩ => ⟨S_, .f32⟩
  | .hbm, ⟨80, _⟩ => ⟨S16384x64x1, .f32⟩
  | .hbm, ⟨81, _⟩ => ⟨S16384x64x1, .f32⟩
  | .hbm, ⟨82, _⟩ => ⟨S_, .f32⟩
  | .hbm, ⟨83, _⟩ => ⟨S16384x64x1, .f32⟩
  | .hbm, ⟨84, _⟩ => ⟨S16384x64x1, .f32⟩
  | .hbm, ⟨85, _⟩ => ⟨S16384x64x64, .f32⟩
  | .hbm, ⟨86, _⟩ => ⟨S16384x64x64, .f32⟩
  | .hbm, ⟨87, _⟩ => ⟨S16384x64x64, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S16384x64x64, .f32⟩
  | .hbm, ⟨92, _⟩ => ⟨S16384x64x64, .f32⟩
  | .hbm, ⟨93, _⟩ => ⟨S_, .f32⟩
  | .hbm, ⟨94, _⟩ => ⟨S16384x64x64, .f32⟩
  | .hbm, ⟨95, _⟩ => ⟨S16384x64x64, .f32⟩
  | .hbm, ⟨96, _⟩ => ⟨S16384x64x64, .f32⟩
  | .hbm, ⟨97, _⟩ => ⟨S16384x64x64, .f32⟩
  | .hbm, ⟨98, _⟩ => ⟨S16384x4096, .f32⟩
  | .hbm, ⟨99, _⟩ => ⟨S1024x4096, .f32⟩
  | .hbm, ⟨100, _⟩ => ⟨S1024x64x64, .f32⟩
  | .hbm, ⟨101, _⟩ => ⟨S1024x64x1, .f32⟩
  | .hbm, ⟨102, _⟩ => ⟨S1024x64x64, .f32⟩
  | .hbm, ⟨103, _⟩ => ⟨S1024x64x64, .f32⟩
  | .hbm, ⟨104, _⟩ => ⟨S1024x4096, .f32⟩
  | .hbm, ⟨105, _⟩ => ⟨S16384x1024, .f32⟩
  | .hbm, ⟨106, _⟩ => ⟨S16384x32, .f32⟩
  | .hbm, ⟨107, _⟩ => ⟨S16384x1024, .f32⟩
  | .hbm, ⟨108, _⟩ => ⟨S16384x1024, .f32⟩
  | .hbm, ⟨109, _⟩ => ⟨S1x1024, .f32⟩
  | .hbm, ⟨110, _⟩ => ⟨S16384x1024, .f32⟩
  | .hbm, ⟨111, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_cst_3 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_4 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_5 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_6 : Ref sig .tc := ⟨.hbm, 64, rfl⟩
abbrev main_v39 : Ref sig .tc := ⟨.hbm, 65, rfl⟩
abbrev main_v40 : Ref sig .tc := ⟨.hbm, 66, rfl⟩
abbrev main_cst_7 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_8 : Ref sig .tc := ⟨.hbm, 76, rfl⟩
abbrev main_v49 : Ref sig .tc := ⟨.hbm, 77, rfl⟩
abbrev main_v50 : Ref sig .tc := ⟨.hbm, 78, rfl⟩
abbrev main_cst_9 : Ref sig .tc := ⟨.hbm, 79, rfl⟩
abbrev main_v51 : Ref sig .tc := ⟨.hbm, 80, rfl⟩
abbrev main_v52 : Ref sig .tc := ⟨.hbm, 81, rfl⟩
abbrev main_cst_10 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_11 : Ref sig .tc := ⟨.hbm, 88, rfl⟩
abbrev main_cst_12 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_call3_v3 : Ref sig .tc := ⟨.hbm, 93, rfl⟩
abbrev main_call3_v4 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  shapeCasts_S16384x1024_S16384x16x64 : S16384x1024.ShapeCasts S16384x16x64
  reducesTo_S16384x16x64_S16384x16_d2 : S16384x16x64.ReducesTo [2] S16384x16
  h_S_ : 0 < S_.numel
  bcast_S16384x16_S16384x16x1_0_1 : S16384x16.BroadcastsInDim S16384x16x1 (![0, 1] : Fin 2 → Fin S16384x16x1.rank)
  bcast_S_S16384x16x1 : S_.BroadcastsInDim S16384x16x1 (![] : Fin 0 → Fin S16384x16x1.rank)
  bcast_S16384x16x1_S16384x16x64_0_1_2 : S16384x16x1.BroadcastsInDim S16384x16x64 (![0, 1, 2] : Fin 3 → Fin S16384x16x64.rank)
  bcast_S_S16384x16x64 : S_.BroadcastsInDim S16384x16x64 (![] : Fin 0 → Fin S16384x16x64.rank)
  shapeCasts_S16384x16x64_S16384x1024 : S16384x16x64.ShapeCasts S16384x1024
  shapeCasts_S4096x1024_S4096x16x64 : S4096x1024.ShapeCasts S4096x16x64
  bcast_S4096x16_S4096x16x1_0_1 : S4096x16.BroadcastsInDim S4096x16x1 (![0, 1] : Fin 2 → Fin S4096x16x1.rank)
  bcast_S4096x16x1_S4096x16x64_0_1_2 : S4096x16x1.BroadcastsInDim S4096x16x64 (![0, 1, 2] : Fin 3 → Fin S4096x16x64.rank)
  shapeCasts_S4096x16x64_S4096x1024 : S4096x16x64.ShapeCasts S4096x1024
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  bcast_S_S16384x4096 : S_.BroadcastsInDim S16384x4096 (![] : Fin 0 → Fin S16384x4096.rank)
  shapeCasts_S16384x4096_S16384x64x64 : S16384x4096.ShapeCasts S16384x64x64
  reducesTo_S16384x64x64_S16384x64_d2 : S16384x64x64.ReducesTo [2] S16384x64
  bcast_S16384x64_S16384x64x1_0_1 : S16384x64.BroadcastsInDim S16384x64x1 (![0, 1] : Fin 2 → Fin S16384x64x1.rank)
  bcast_S_S16384x64x1 : S_.BroadcastsInDim S16384x64x1 (![] : Fin 0 → Fin S16384x64x1.rank)
  bcast_S16384x64x1_S16384x64x64_0_1_2 : S16384x64x1.BroadcastsInDim S16384x64x64 (![0, 1, 2] : Fin 3 → Fin S16384x64x64.rank)
  bcast_S_S16384x64x64 : S_.BroadcastsInDim S16384x64x64 (![] : Fin 0 → Fin S16384x64x64.rank)
  shapeCasts_S16384x64x64_S16384x4096 : S16384x64x64.ShapeCasts S16384x4096
  shapeCasts_S1024x4096_S1024x64x64 : S1024x4096.ShapeCasts S1024x64x64
  bcast_S1024x64_S1024x64x1_0_1 : S1024x64.BroadcastsInDim S1024x64x1 (![0, 1] : Fin 2 → Fin S1024x64x1.rank)
  bcast_S1024x64x1_S1024x64x64_0_1_2 : S1024x64x1.BroadcastsInDim S1024x64x64 (![0, 1, 2] : Fin 3 → Fin S1024x64x64.rank)
  shapeCasts_S1024x64x64_S1024x4096 : S1024x64x64.ShapeCasts S1024x4096
  dot_S16384x1024_S4096x1024_S16384x4096_1_1_0_0_n_n_wf : DotDims.WF S16384x1024 S4096x1024 S16384x4096 [1] [1] [0] [0] [] []
  dot_S16384x1024_S32x1024_S16384x32_1_1_0_0_n_n_wf : DotDims.WF S16384x1024 S32x1024 S16384x32 [1] [1] [0] [0] [] []
  dot_S16384x32_S4096x32_S16384x4096_1_1_0_0_n_n_wf : DotDims.WF S16384x32 S4096x32 S16384x4096 [1] [1] [0] [0] [] []
  dot_S16384x4096_S1024x4096_S16384x1024_1_1_0_0_n_n_wf : DotDims.WF S16384x4096 S1024x4096 S16384x1024 [1] [1] [0] [0] [] []
  dot_S16384x4096_S32x4096_S16384x32_1_1_0_0_n_n_wf : DotDims.WF S16384x4096 S32x4096 S16384x32 [1] [1] [0] [0] [] []
  dot_S16384x32_S1024x32_S16384x1024_1_1_0_0_n_n_wf : DotDims.WF S16384x32 S1024x32 S16384x1024 [1] [1] [0] [0] [] []

variable [Facts₀]

def dot_S16384x1024_S4096x1024_S16384x4096_1_1_0_0_n_n : DotDims S16384x1024 S4096x1024 S16384x4096 where
  lhsContracting := [1]
  rhsContracting := [1]
  lhsNonContracting := [0]
  rhsNonContracting := [0]
  lhsBatch := []
  rhsBatch := []
  wf := dot_S16384x1024_S4096x1024_S16384x4096_1_1_0_0_n_n_wf
def dot_S16384x1024_S32x1024_S16384x32_1_1_0_0_n_n : DotDims S16384x1024 S32x1024 S16384x32 where
  lhsContracting := [1]
  rhsContracting := [1]
  lhsNonContracting := [0]
  rhsNonContracting := [0]
  lhsBatch := []
  rhsBatch := []
  wf := dot_S16384x1024_S32x1024_S16384x32_1_1_0_0_n_n_wf
def dot_S16384x32_S4096x32_S16384x4096_1_1_0_0_n_n : DotDims S16384x32 S4096x32 S16384x4096 where
  lhsContracting := [1]
  rhsContracting := [1]
  lhsNonContracting := [0]
  rhsNonContracting := [0]
  lhsBatch := []
  rhsBatch := []
  wf := dot_S16384x32_S4096x32_S16384x4096_1_1_0_0_n_n_wf
def dot_S16384x4096_S1024x4096_S16384x1024_1_1_0_0_n_n : DotDims S16384x4096 S1024x4096 S16384x1024 where
  lhsContracting := [1]
  rhsContracting := [1]
  lhsNonContracting := [0]
  rhsNonContracting := [0]
  lhsBatch := []
  rhsBatch := []
  wf := dot_S16384x4096_S1024x4096_S16384x1024_1_1_0_0_n_n_wf
def dot_S16384x4096_S32x4096_S16384x32_1_1_0_0_n_n : DotDims S16384x4096 S32x4096 S16384x32 where
  lhsContracting := [1]
  rhsContracting := [1]
  lhsNonContracting := [0]
  rhsNonContracting := [0]
  lhsBatch := []
  rhsBatch := []
  wf := dot_S16384x4096_S32x4096_S16384x32_1_1_0_0_n_n_wf
def dot_S16384x32_S1024x32_S16384x1024_1_1_0_0_n_n : DotDims S16384x32 S1024x32 S16384x1024 where
  lhsContracting := [1]
  rhsContracting := [1]
  lhsNonContracting := [0]
  rhsNonContracting := [0]
  lhsBatch := []
  rhsBatch := []
  wf := dot_S16384x32_S1024x32_S16384x1024_1_1_0_0_n_n_wf

class Facts : Prop extends Facts₀ where

variable [Facts]
-- ==== Proof.LibRowBlocks.lean ====
/-
  General readings, at an index written by coordinates, of the operations a row-blocked matrix kernel is made
  of: a matrix product into a zero accumulator as the plain sum over the contracted coordinate; a row of
  `64 · 64` entries recast as 64 groups of 64 and back; a per-group value given a trailing unit axis and
  spread over its group; and a group's maximum, on the vector unit and on the host, as one fold of `max`.
-/
import Idealize.ShloMosaic.PureOps.Ideal.Laws
import Idealize.ShloMosaic.Lib.ValueIdx
import Idealize.ShloMosaic.Lib.Pipeline.Value

noncomputable section

namespace Cert.LibRowBlocks

open Idealize.ShloMosaic Idealize.ShloMosaic.ValueIdx

/-- A product of an `[a, k]` by a `[k, b]` matrix, contracting the left operand's columns with the right operand's
    rows into a zero accumulator, is at `(p, c)` the sum over `q` of `l (p, q) · r (q, c)`.  `hl0` and `hr1` say
    that the kept axes carry the output's coordinates; they are read off the record's dimension numbers. -/
theorem matmul_zero_ix2 {a k b : ℕ} {φ₁ φ₂ : FTy}
    (D : DotDims ⟨2, ![a, k]⟩ ⟨2, ![k, b]⟩ ⟨2, ![a, b]⟩)
    (hr : D.contr.rank = 1) (hs : D.contr.size ⟨0, by omega⟩ = k)
    (hlc : D.lhsContracting = [1]) (hrc : D.rhsContracting = [0])
    (hl0 : ∀ j q, (D.lhsIdx j q 0).val = (j 0).val) (hr1 : ∀ j q, (D.rhsIdx j q 1).val = (j 1).val)
    (l : FVec Ideal ⟨2, ![a, k]⟩ φ₁) (r : FVec Ideal ⟨2, ![k, b]⟩ φ₂) (p : Fin a) (c : Fin b) :
    matmul D none l r (constant (F := Ideal) ⟨2, ![a, b]⟩ .f32 0x00000000#32) (ix2 p c)
      = ∑ q : Fin k, l (ix2 p q) * r (ix2 q c) := by
  simp only [matmul]
  rw [Ideal.matmul_constant_zero_apply, ← Equiv.sum_comp (contrEquiv1 D k hr hs).symm]
  refine Finset.sum_congr rfl fun q _ => ?_
  have hq := contrEquiv1_symm_val D k hr hs q
  have el : D.lhsIdx (ix2 p c) ((contrEquiv1 D k hr hs).symm q) = ix2 p q := funext fun x => Fin.ext (by
    match x with
    | ⟨0, _⟩ => exact hl0 _ _
    | ⟨1, _⟩ => exact (D.lhsIdx_val_of_single hlc _ _).trans hq)
  have er : D.rhsIdx (ix2 p c) ((contrEquiv1 D k hr hs).symm q) = ix2 q c := funext fun x => Fin.ext (by
    match x with
    | ⟨0, _⟩ => exact (D.rhsIdx_val_of_single hrc _ _).trans hq
    | ⟨1, _⟩ => exact hr1 _ _)
  rw [el, er]

/-! ## A row of 4096 entries as 64 groups of 64 -/

/-- Entry `j` of group `g` in a row of 64 groups of 64 entries. -/
def at64 (g j : Fin 64) : Fin 4096 := ⟨g.val * 64 + j.val, by have := g.isLt; have := j.isLt; omega⟩

/-- The group an entry of such a row lies in. -/
def grp64 (k : Fin 4096) : Fin 64 := ⟨k.val / 64, by have := k.isLt; omega⟩

/-- Its place inside the group. -/
def pos64 (k : Fin 4096) : Fin 64 := ⟨k.val % 64, by omega⟩

theorem at64_grp_pos (k : Fin 4096) : at64 (grp64 k) (pos64 k) = k :=
  Fin.ext (by show k.val / 64 * 64 + k.val % 64 = k.val; omega)

theorem grp64_at64 (g j : Fin 64) : grp64 (at64 g j) = g :=
  Fin.ext (by show (g.val * 64 + j.val) / 64 = g.val; have := j.isLt; omega)

theorem pos64_at64 (g j : Fin 64) : pos64 (at64 g j) = j :=
  Fin.ext (by show (g.val * 64 + j.val) % 64 = j.val; have := j.isLt; omega)

variable {α : Type}

/-- An `[a, 4096]` array recast as `[a, 64, 64]` reads, at `(p, g, j)`, the operand at `(p, 64 g + j)`. -/
theorem cast_row_to_groups {a : ℕ} (x : (⟨2, ![a, 4096]⟩ : Shape).Idx → α)
    (h : (⟨2, ![a, 4096]⟩ : Shape).ShapeCasts ⟨3, ![a, 64, 64]⟩) (p : Fin a) (g j : Fin 64) (k : Fin 4096)
    (hk : k.val = g.val * 64 + j.val) :
    shapeCast ⟨3, ![a, 64, 64]⟩ x h (ix3 p g j) = x (ix2 p k) :=
  shapeCast_apply x h _ _ (by
    rw [Shape.rowMajor_val_two, Shape.rowMajor_val_three]
    show p.val * 4096 + k.val = (p.val * 64 + g.val) * 64 + j.val
    omega)

/-- An `[a, 64, 64]` array recast as `[a, 4096]` reads, at `(p, k)`, the operand at `(p, k / 64, k % 64)`. -/
theorem cast_groups_to_row {a : ℕ} (x : (⟨3, ![a, 64, 64]⟩ : Shape).Idx → α)
    (h : (⟨3, ![a, 64, 64]⟩ : Shape).ShapeCasts ⟨2, ![a, 4096]⟩) (p : Fin a) (k : Fin 4096) (g j : Fin 64)
    (hk : k.val = g.val * 64 + j.val) :
    shapeCast ⟨2, ![a, 4096]⟩ x h (ix2 p k) = x (ix3 p g j) :=
  shapeCast_apply x h _ _ (by
    rw [Shape.rowMajor_val_two, Shape.rowMajor_val_three]
    show (p.val * 64 + g.val) * 64 + j.val = p.val * 4096 + k.val
    omega)

/-- An `[a, b]` array given a trailing unit axis reads, at `(p, g, u)`, the operand at `(p, g)`. -/
theorem cast_trailing_unit {a b : ℕ} (x : (⟨2, ![a, b]⟩ : Shape).Idx → α)
    (h : (⟨2, ![a, b]⟩ : Shape).ShapeCasts ⟨3, ![a, b, 1]⟩) (p : Fin a) (g : Fin b) (u : Fin 1) :
    shapeCast ⟨3, ![a, b, 1]⟩ x h (ix3 p g u) = x (ix2 p g) :=
  shapeCast_apply x h _ _ (by
    rw [Shape.rowMajor_val_two, Shape.rowMajor_val_three]
    show p.val * b + g.val = (p.val * b + g.val) * 1 + u.val
    have := u.isLt
    omega)

/-- An `[a, b, 1]` array spread along its last axis reads, at `(p, g, j)`, the operand at `(p, g, 0)`. -/
theorem spread_last_axis {a b c : ℕ} (x : (⟨3, ![a, b, 1]⟩ : Shape).Idx → α)
    (h : (⟨3, ![a, b, 1]⟩ : Shape).Broadcasts ⟨3, ![a, b, c]⟩) (p : Fin a) (g : Fin b) (j : Fin c) :
    broadcastTo ⟨3, ![a, b, c]⟩ x h (ix3 p g j) = x (ix3 p g (0 : Fin 1)) := by
  refine broadcastTo_apply x h (ix3 p g j) (ix3 p g (0 : Fin 1)) fun ax => ?_
  match ax with
  | ⟨0, _⟩ =>
    show p.val = if a = 1 then 0 else p.val
    split
    · have := p.isLt; omega
    · rfl
  | ⟨1, _⟩ =>
    show g.val = if b = 1 then 0 else g.val
    split
    · have := g.isLt; omega
    · rfl
  | ⟨2, _⟩ => rfl

/-- The recast to groups at `(p, g, j)`, with the entry named. -/
theorem cast_row_to_groups_at {a : ℕ} (x : (⟨2, ![a, 4096]⟩ : Shape).Idx → α)
    (h : (⟨2, ![a, 4096]⟩ : Shape).ShapeCasts ⟨3, ![a, 64, 64]⟩) (p : Fin a) (g j : Fin 64) :
    shapeCast ⟨3, ![a, 64, 64]⟩ x h (ix3 p g j) = x (ix2 p (at64 g j)) :=
  cast_row_to_groups x h p g j (at64 g j) rfl

/-- The recast back to a row at `(p, k)`, with the group and the place named. -/
theorem cast_groups_to_row_at {a : ℕ} (x : (⟨3, ![a, 64, 64]⟩ : Shape).Idx → α)
    (h : (⟨3, ![a, 64, 64]⟩ : Shape).ShapeCasts ⟨2, ![a, 4096]⟩) (p : Fin a) (k : Fin 4096) :
    shapeCast ⟨2, ![a, 4096]⟩ x h (ix2 p k) = x (ix3 p (grp64 k) (pos64 k)) :=
  cast_groups_to_row x h p k (grp64 k) (pos64 k) (by show k.val = k.val / 64 * 64 + k.val % 64; omega)

/-! ## A group's maximum -/

/-- On the vector unit: the maximum over the last axis of an `[a, 64, 64]` array, from −∞, is at `(p, g)` the fold
    of `max` over the 64 entries of group `g` of row `p`. -/
theorem group_max_vec {a : ℕ} (src : FVec Ideal ⟨3, ![a, 64, 64]⟩ .f32)
    (h : (⟨3, ![a, 64, 64]⟩ : Shape).Reduces [2] ⟨2, ![a, 64]⟩) (hφ : FKind.Formats .f32)
    (hacc : (0xFF800000#32 : BitVec 32) = FKind.maximumf.neutral .f32 hφ) (p : Fin a) (g : Fin 64) :
    multiReduction .maximumf [2] ⟨2, ![a, 64]⟩ src 0xFF800000#32 h hφ hacc (ix2 p g)
      = (Finset.univ : Finset (Fin 64)).fold max (Ideal.ofBits .f32 0xFF800000#32) (fun j => src (ix3 p g j)) := by
  refine (Ideal.multiReduction_maximumf_single src _ h hφ hacc (ix2 p g)).trans ?_
  show (Finset.univ : Finset (Fin 64)).fold max (Ideal.ofBits .f32 0xFF800000#32) (fun j => src (h.lift (ix2 p g) j)) = _
  have e : ∀ j : Fin 64, h.lift (ix2 p g) j = ix3 p g j := fun j => funext fun c => Fin.ext (by
    match c with
    | ⟨0, _⟩ => rfl
    | ⟨1, _⟩ => rfl
    | ⟨2, _⟩ => rfl)
  exact congrArg (fun f : Fin 64 → EReal => (Finset.univ : Finset (Fin 64)).fold max (Ideal.ofBits .f32 0xFF800000#32) f)
    (funext fun j => congrArg src (e j))

/-- On the host: the same maximum as a one-operand reduce from a rank-zero initial value. -/
theorem group_max_host {a : ℕ} (x : (⟨3, ![a, 64, 64]⟩ : Shape).Idx → EReal) (init : (⟨0, ![]⟩ : Shape).Idx → EReal)
    (h' : (⟨3, ![a, 64, 64]⟩ : Shape).ReducesTo [2] ⟨2, ![a, 64]⟩)
    (h : (⟨3, ![a, 64, 64]⟩ : Shape).Reduces [2] ⟨2, ![a, 64]⟩) (hu : 0 < (⟨0, ![]⟩ : Shape).numel)
    (p : Fin a) (g : Fin 64) :
    Host.reduce (FloatOps.maximumf (F := Ideal) (φ := .f32)) x init h' hu (ix2 p g)
      = (Finset.univ : Finset (Fin 64)).fold max (init ix0) (fun j => x (ix3 p g j)) := by
  refine (Host.reduce_eq_fold_single (FloatOps.maximumf (F := Ideal) (φ := .f32)) x init h' h hu (ix2 p g)).trans ?_
  show (Finset.univ : Finset (Fin 64)).fold max (init (Shape.Idx.first hu)) (fun j => x (h.lift (ix2 p g) j)) = _
  have e : ∀ j : Fin 64, h.lift (ix2 p g) j = ix3 p g j := fun j => funext fun c => Fin.ext (by
    match c with
    | ⟨0, _⟩ => rfl
    | ⟨1, _⟩ => rfl
    | ⟨2, _⟩ => rfl)
  rw [eq_ix0 (Shape.Idx.first hu)]
  exact congrArg (fun f : Fin 64 → EReal => (Finset.univ : Finset (Fin 64)).fold max (init ix0) f)
    (funext fun j => congrArg x (e j))

end Cert.LibRowBlocks

end
-- ==== Proof.BodyDots.lean ====
/-
  The six matrix products of the kernel body, each read at an output entry as a plain sum: the body multiplies a
  block of 128 token rows by whole weight matrices, always contracting the left operand's columns with the right
  operand's rows into a zero accumulator.
-/
import proofs.«180111_j4947802325522_2_alg».proof.Proof.Gen.KernelIdeal
import proofs.«180111_j4947802325522_2_alg».proof.Proof.LibRowBlocks

noncomputable section

namespace Cert.KernelIdeal.Body

open Idealize.ShloMosaic Idealize.ShloMosaic.ValueIdx Cert.KernelIdeal Cert.KernelIdeal.Gen Cert.LibRowBlocks

/-- The left operand's kept axis carries the output's row. -/
theorem dot1_row (j : S128x4096.Idx) (q : dot_S128x1024_S1024x4096_S128x4096_1_0_0_1_n_n.contr.Idx) : (dot_S128x1024_S1024x4096_S128x4096_1_0_0_1_n_n.lhsIdx j q 0).val = (j 0).val := by
  unfold DotDims.lhsIdx
  rw [dif_neg (show ¬(0 : Fin S128x1024.rank) ∈ dot_S128x1024_S1024x4096_S128x4096_1_0_0_1_n_n.lhsBatch by decide), dif_pos (show (0 : Fin S128x1024.rank) ∈ dot_S128x1024_S1024x4096_S128x4096_1_0_0_1_n_n.lhsNonContracting by decide)]
  rfl

/-- The right operand's kept axis carries the output's column. -/
theorem dot1_col (j : S128x4096.Idx) (q : dot_S128x1024_S1024x4096_S128x4096_1_0_0_1_n_n.contr.Idx) : (dot_S128x1024_S1024x4096_S128x4096_1_0_0_1_n_n.rhsIdx j q 1).val = (j 1).val := by
  unfold DotDims.rhsIdx
  rw [dif_neg (show ¬(1 : Fin S1024x4096.rank) ∈ dot_S128x1024_S1024x4096_S128x4096_1_0_0_1_n_n.rhsBatch by decide), dif_pos (show (1 : Fin S1024x4096.rank) ∈ dot_S128x1024_S1024x4096_S128x4096_1_0_0_1_n_n.rhsNonContracting by decide)]
  rfl

/-- The 128 × 1024 by 1024 × 4096 product at `(p, c)`. -/
theorem dot1_apply (l : FVec Ideal S128x1024 .bf16) (r : FVec Ideal S1024x4096 .bf16) (p : Fin 128) (c : Fin 4096) :
    matmul dot_S128x1024_S1024x4096_S128x4096_1_0_0_1_n_n none l r (constant (F := Ideal) S128x4096 .f32 0x00000000#32) (ix2 p c)
      = ∑ q : Fin 1024, l (ix2 p q) * r (ix2 q c) :=
  matmul_zero_ix2 dot_S128x1024_S1024x4096_S128x4096_1_0_0_1_n_n rfl rfl rfl rfl dot1_row dot1_col l r p c

/-- The left operand's kept axis carries the output's row. -/
theorem dot2_row (j : S128x32.Idx) (q : dot_S128x1024_S1024x32_S128x32_1_0_0_1_n_n.contr.Idx) : (dot_S128x1024_S1024x32_S128x32_1_0_0_1_n_n.lhsIdx j q 0).val = (j 0).val := by
  unfold DotDims.lhsIdx
  rw [dif_neg (show ¬(0 : Fin S128x1024.rank) ∈ dot_S128x1024_S1024x32_S128x32_1_0_0_1_n_n.lhsBatch by decide), dif_pos (show (0 : Fin S128x1024.rank) ∈ dot_S128x1024_S1024x32_S128x32_1_0_0_1_n_n.lhsNonContracting by decide)]
  rfl

/-- The right operand's kept axis carries the output's column. -/
theorem dot2_col (j : S128x32.Idx) (q : dot_S128x1024_S1024x32_S128x32_1_0_0_1_n_n.contr.Idx) : (dot_S128x1024_S1024x32_S128x32_1_0_0_1_n_n.rhsIdx j q 1).val = (j 1).val := by
  unfold DotDims.rhsIdx
  rw [dif_neg (show ¬(1 : Fin S1024x32.rank) ∈ dot_S128x1024_S1024x32_S128x32_1_0_0_1_n_n.rhsBatch by decide), dif_pos (show (1 : Fin S1024x32.rank) ∈ dot_S128x1024_S1024x32_S128x32_1_0_0_1_n_n.rhsNonContracting by decide)]
  rfl

/-- The 128 × 1024 by 1024 × 32 product at `(p, c)`. -/
theorem dot2_apply (l : FVec Ideal S128x1024 .bf16) (r : FVec Ideal S1024x32 .bf16) (p : Fin 128) (c : Fin 32) :
    matmul dot_S128x1024_S1024x32_S128x32_1_0_0_1_n_n none l r (constant (F := Ideal) S128x32 .f32 0x00000000#32) (ix2 p c)
      = ∑ q : Fin 1024, l (ix2 p q) * r (ix2 q c) :=
  matmul_zero_ix2 dot_S128x1024_S1024x32_S128x32_1_0_0_1_n_n rfl rfl rfl rfl dot2_row dot2_col l r p c

/-- The left operand's kept axis carries the output's row. -/
theorem dot3_row (j : S128x4096.Idx) (q : dot_S128x32_S32x4096_S128x4096_1_0_0_1_n_n.contr.Idx) : (dot_S128x32_S32x4096_S128x4096_1_0_0_1_n_n.lhsIdx j q 0).val = (j 0).val := by
  unfold DotDims.lhsIdx
  rw [dif_neg (show ¬(0 : Fin S128x32.rank) ∈ dot_S128x32_S32x4096_S128x4096_1_0_0_1_n_n.lhsBatch by decide), dif_pos (show (0 : Fin S128x32.rank) ∈ dot_S128x32_S32x4096_S128x4096_1_0_0_1_n_n.lhsNonContracting by decide)]
  rfl

/-- The right operand's kept axis carries the output's column. -/
theorem dot3_col (j : S128x4096.Idx) (q : dot_S128x32_S32x4096_S128x4096_1_0_0_1_n_n.contr.Idx) : (dot_S128x32_S32x4096_S128x4096_1_0_0_1_n_n.rhsIdx j q 1).val = (j 1).val := by
  unfold DotDims.rhsIdx
  rw [dif_neg (show ¬(1 : Fin S32x4096.rank) ∈ dot_S128x32_S32x4096_S128x4096_1_0_0_1_n_n.rhsBatch by decide), dif_pos (show (1 : Fin S32x4096.rank) ∈ dot_S128x32_S32x4096_S128x4096_1_0_0_1_n_n.rhsNonContracting by decide)]
  rfl

/-- The 128 × 32 by 32 × 4096 product at `(p, c)`. -/
theorem dot3_apply (l : FVec Ideal S128x32 .bf16) (r : FVec Ideal S32x4096 .bf16) (p : Fin 128) (c : Fin 4096) :
    matmul dot_S128x32_S32x4096_S128x4096_1_0_0_1_n_n none l r (constant (F := Ideal) S128x4096 .f32 0x00000000#32) (ix2 p c)
      = ∑ q : Fin 32, l (ix2 p q) * r (ix2 q c) :=
  matmul_zero_ix2 dot_S128x32_S32x4096_S128x4096_1_0_0_1_n_n rfl rfl rfl rfl dot3_row dot3_col l r p c

/-- The left operand's kept axis carries the output's row. -/
theorem dot4_row (j : S128x1024.Idx) (q : dot_S128x4096_S4096x1024_S128x1024_1_0_0_1_n_n.contr.Idx) : (dot_S128x4096_S4096x1024_S128x1024_1_0_0_1_n_n.lhsIdx j q 0).val = (j 0).val := by
  unfold DotDims.lhsIdx
  rw [dif_neg (show ¬(0 : Fin S128x4096.rank) ∈ dot_S128x4096_S4096x1024_S128x1024_1_0_0_1_n_n.lhsBatch by decide), dif_pos (show (0 : Fin S128x4096.rank) ∈ dot_S128x4096_S4096x1024_S128x1024_1_0_0_1_n_n.lhsNonContracting by decide)]
  rfl

/-- The right operand's kept axis carries the output's column. -/
theorem dot4_col (j : S128x1024.Idx) (q : dot_S128x4096_S4096x1024_S128x1024_1_0_0_1_n_n.contr.Idx) : (dot_S128x4096_S4096x1024_S128x1024_1_0_0_1_n_n.rhsIdx j q 1).val = (j 1).val := by
  unfold DotDims.rhsIdx
  rw [dif_neg (show ¬(1 : Fin S4096x1024.rank) ∈ dot_S128x4096_S4096x1024_S128x1024_1_0_0_1_n_n.rhsBatch by decide), dif_pos (show (1 : Fin S4096x1024.rank) ∈ dot_S128x4096_S4096x1024_S128x1024_1_0_0_1_n_n.rhsNonContracting by decide)]
  rfl

/-- The 128 × 4096 by 4096 × 1024 product at `(p, c)`. -/
theorem dot4_apply (l : FVec Ideal S128x4096 .bf16) (r : FVec Ideal S4096x1024 .bf16) (p : Fin 128) (c : Fin 1024) :
    matmul dot_S128x4096_S4096x1024_S128x1024_1_0_0_1_n_n none l r (constant (F := Ideal) S128x1024 .f32 0x00000000#32) (ix2 p c)
      = ∑ q : Fin 4096, l (ix2 p q) * r (ix2 q c) :=
  matmul_zero_ix2 dot_S128x4096_S4096x1024_S128x1024_1_0_0_1_n_n rfl rfl rfl rfl dot4_row dot4_col l r p c

/-- The left operand's kept axis carries the output's row. -/
theorem dot5_row (j : S128x32.Idx) (q : dot_S128x4096_S4096x32_S128x32_1_0_0_1_n_n.contr.Idx) : (dot_S128x4096_S4096x32_S128x32_1_0_0_1_n_n.lhsIdx j q 0).val = (j 0).val := by
  unfold DotDims.lhsIdx
  rw [dif_neg (show ¬(0 : Fin S128x4096.rank) ∈ dot_S128x4096_S4096x32_S128x32_1_0_0_1_n_n.lhsBatch by decide), dif_pos (show (0 : Fin S128x4096.rank) ∈ dot_S128x4096_S4096x32_S128x32_1_0_0_1_n_n.lhsNonContracting by decide)]
  rfl

/-- The right operand's kept axis carries the output's column. -/
theorem dot5_col (j : S128x32.Idx) (q : dot_S128x4096_S4096x32_S128x32_1_0_0_1_n_n.contr.Idx) : (dot_S128x4096_S4096x32_S128x32_1_0_0_1_n_n.rhsIdx j q 1).val = (j 1).val := by
  unfold DotDims.rhsIdx
  rw [dif_neg (show ¬(1 : Fin S4096x32.rank) ∈ dot_S128x4096_S4096x32_S128x32_1_0_0_1_n_n.rhsBatch by decide), dif_pos (show (1 : Fin S4096x32.rank) ∈ dot_S128x4096_S4096x32_S128x32_1_0_0_1_n_n.rhsNonContracting by decide)]
  rfl

/-- The 128 × 4096 by 4096 × 32 product at `(p, c)`. -/
theorem dot5_apply (l : FVec Ideal S128x4096 .bf16) (r : FVec Ideal S4096x32 .bf16) (p : Fin 128) (c : Fin 32) :
    matmul dot_S128x4096_S4096x32_S128x32_1_0_0_1_n_n none l r (constant (F := Ideal) S128x32 .f32 0x00000000#32) (ix2 p c)
      = ∑ q : Fin 4096, l (ix2 p q) * r (ix2 q c) :=
  matmul_zero_ix2 dot_S128x4096_S4096x32_S128x32_1_0_0_1_n_n rfl rfl rfl rfl dot5_row dot5_col l r p c

/-- The left operand's kept axis carries the output's row. -/
theorem dot6_row (j : S128x1024.Idx) (q : dot_S128x32_S32x1024_S128x1024_1_0_0_1_n_n.contr.Idx) : (dot_S128x32_S32x1024_S128x1024_1_0_0_1_n_n.lhsIdx j q 0).val = (j 0).val := by
  unfold DotDims.lhsIdx
  rw [dif_neg (show ¬(0 : Fin S128x32.rank) ∈ dot_S128x32_S32x1024_S128x1024_1_0_0_1_n_n.lhsBatch by decide), dif_pos (show (0 : Fin S128x32.rank) ∈ dot_S128x32_S32x1024_S128x1024_1_0_0_1_n_n.lhsNonContracting by decide)]
  rfl

/-- The right operand's kept axis carries the output's column. -/
theorem dot6_col (j : S128x1024.Idx) (q : dot_S128x32_S32x1024_S128x1024_1_0_0_1_n_n.contr.Idx) : (dot_S128x32_S32x1024_S128x1024_1_0_0_1_n_n.rhsIdx j q 1).val = (j 1).val := by
  unfold DotDims.rhsIdx
  rw [dif_neg (show ¬(1 : Fin S32x1024.rank) ∈ dot_S128x32_S32x1024_S128x1024_1_0_0_1_n_n.rhsBatch by decide), dif_pos (show (1 : Fin S32x1024.rank) ∈ dot_S128x32_S32x1024_S128x1024_1_0_0_1_n_n.rhsNonContracting by decide)]
  rfl

/-- The 128 × 32 by 32 × 1024 product at `(p, c)`. -/
theorem dot6_apply (l : FVec Ideal S128x32 .bf16) (r : FVec Ideal S32x1024 .bf16) (p : Fin 128) (c : Fin 1024) :
    matmul dot_S128x32_S32x1024_S128x1024_1_0_0_1_n_n none l r (constant (F := Ideal) S128x1024 .f32 0x00000000#32) (ix2 p c)
      = ∑ q : Fin 32, l (ix2 p q) * r (ix2 q c) :=
  matmul_zero_ix2 dot_S128x32_S32x1024_S128x1024_1_0_0_1_n_n rfl rfl rfl rfl dot6_row dot6_col l r p c

end Cert.KernelIdeal.Body

end
-- ==== Proof.Spec.lean ====
/-
  One token row of the two-layer block, over the extended reals.

  A row `x` of 1024 inputs goes through a first linear layer with 4096 outputs, the tanh form of GELU, and a
  second linear layer back to 1024 outputs.  Each linear layer is the sum of three terms: a product of a
  QUANTIZED copy of its input with a weight matrix, a rank-32 correction `(input · ldᵀ) · luᵀ` of the
  unquantized input, and a bias.  Quantizing a row divides it by a per-column vector, cuts it into groups of
  64 consecutive entries, takes as each group's step a seventh of the group's largest magnitude (the magnitude
  kept at least 1e-6), rounds every entry to the nearest multiple of its group's step, ties to even, and clips
  to the multiples −8 … 7.

  Every float literal is kept as the extended real its 32-bit pattern denotes: both programs carry the same
  patterns, so none is ever evaluated.
-/
import proofs.«180111_j4947802325522_2_alg».proof.Proof.LibRowBlocks

noncomputable section

namespace Cert.QuantMlp

open Idealize.ShloMosaic Cert.LibRowBlocks

/-- The extended real a 32-bit float pattern denotes. -/
abbrev lit (w : BitVec 32) : EReal := Ideal.ofBits .f32 w

/-- The tanh form of GELU, `u · (½ · (1 + tanh (c₁ · (u + c₂ · u³))))`, the cube taken as `u · (u · u)`. -/
def gelu (u : EReal) : EReal :=
  u * (lit 0x3F000000#32 * (lit 0x3F800000#32 + Ideal.tanh (lit 0x3F4C422A#32 * (u + lit 0x3D372713#32 * (u * (u * u))))))

/-- The same with the cube taken as `(u · u) · u`: multiplication of extended reals commutes. -/
theorem gelu_cube_left (u : EReal) :
    u * (lit 0x3F000000#32 * (lit 0x3F800000#32 + Ideal.tanh (lit 0x3F4C422A#32 * (u + lit 0x3D372713#32 * ((u * u) * u))))) = gelu u := by
  unfold gelu
  rw [mul_comm (u * u) u]

/-- Magnitude on the extended reals. -/
def mag (x : EReal) : EReal := max x (-x)

/-- The largest of 64 values, starting from −∞. -/
def gmax (f : Fin 64 → EReal) : EReal := (Finset.univ : Finset (Fin 64)).fold max (lit 0xFF800000#32) f

/-- A group's quantization step: a seventh of its largest magnitude, the magnitude kept at least 1e-6. -/
def step (f : Fin 64 → EReal) : EReal :=
  Ideal.div (max (gmax fun j => mag (f j)) (lit 0x358637BD#32)) (lit 0x40E00000#32)

/-- One value quantized with step `s`: the nearest multiple of `s` (ties to even), clipped to −8 … 7 steps. -/
def quant (v s : EReal) : EReal :=
  min (lit 0x40E00000#32) (max (lit 0xC1000000#32) (Ideal.liftRound Ideal.roundHalfEven (Ideal.div v s))) * s

/-- A row of 4096 values quantized group by group. -/
def quantRow (v : Fin 4096 → EReal) (k : Fin 4096) : EReal :=
  quant (v k) (step fun j => v (at64 (grp64 k) j))

/-- The hidden row: GELU of (quantized input · W₁ᵀ + (input · ld₁ᵀ) · lu₁ᵀ + b₁). -/
def hidden (xq x : Fin 1024 → EReal) (w1 : Fin 4096 → Fin 1024 → EReal) (ld1 : Fin 32 → Fin 1024 → EReal)
    (lu1 : Fin 4096 → Fin 32 → EReal) (b1 : Fin 4096 → EReal) (o : Fin 4096) : EReal :=
  gelu (((∑ d : Fin 1024, xq d * w1 o d) + ∑ r : Fin 32, (∑ d : Fin 1024, x d * ld1 r d) * lu1 o r) + b1 o)

/-- The output row: quantized (hidden / smooth) · W₂ᵀ + (hidden · ld₂ᵀ) · lu₂ᵀ + b₂. -/
def output (h sm : Fin 4096 → EReal) (w2 : Fin 1024 → Fin 4096 → EReal) (ld2 : Fin 32 → Fin 4096 → EReal)
    (lu2 : Fin 1024 → Fin 32 → EReal) (b2 : Fin 1024 → EReal) (n : Fin 1024) : EReal :=
  ((∑ k : Fin 4096, quantRow (fun k => Ideal.div (h k) (sm k)) k * w2 n k)
    + ∑ r : Fin 32, (∑ k : Fin 4096, h k * ld2 r k) * lu2 n r) + b2 n

end Cert.QuantMlp

end
-- ==== Proof.BodyLayer1.lean ====
/-
  The first layer on a block of 128 token rows: the body's value before the second quantization, entry by entry,
  is the hidden row of the specification computed from row `p` of the two input blocks and the whole parameter
  blocks (the weight blocks arrive transposed, so entry `(d, o)` of a block is entry `(o, d)` of the matrix).
-/
import proofs.«180111_j4947802325522_2_alg».proof.Proof.Gen.KernelIdeal.Skeleton
import proofs.«180111_j4947802325522_2_alg».proof.Proof.BodyDots
import proofs.«180111_j4947802325522_2_alg».proof.Proof.Spec
import Idealize.ShloMosaic.Lib.ValueLayout

noncomputable section

namespace Cert.KernelIdeal.Body

open Idealize.ShloMosaic Idealize.ShloMosaic.ValueIdx Cert.KernelIdeal Cert.KernelIdeal.Gen Cert.LibRowBlocks Cert.QuantMlp

theorem tanh_at {s : Shape} {φ : FTy} (a : FVec Ideal s φ) (i : s.Idx) : tanh a i = Ideal.tanh (a i) := rfl

/-- The value the body computes before dividing by the second smoothing vector, at row `p` and hidden unit `o`. -/
theorem pay_hidden (v0 : FVec Ideal S128x1024 .bf16) (v2 : FVec Ideal S1024x4096 .bf16) (v5 : FVec Ideal S128x1024 .bf16)
    (v7 : FVec Ideal S1024x32 .bf16) (v11 : FVec Ideal S32x4096 .bf16) (v15 : FVec Ideal S1x4096 .f32)
    (p : Fin 128) (o : Fin 4096) :
    k0_pay2 (F := Ideal) v0 v2 v5 v7 v11 v15 (ix2 p o)
      = hidden (fun d => v0 (ix2 p d)) (fun d => v5 (ix2 p d)) (fun o d => v2 (ix2 d o)) (fun r d => v7 (ix2 d r))
          (fun o r => v11 (ix2 r o)) (fun o => v15 (ix2 (0 : Fin 1) o)) o := by
  unfold k0_pay2
  simp only [shapeCast_self, mulf_apply, addf_apply, tanh_at, broadcast_apply, truncf_apply, dot1_apply, dot2_apply, dot3_apply,
    broadcastTo_1b_ab_apply]
  rfl

end Cert.KernelIdeal.Body

end
-- ==== Proof.BodyLayer2.lean ====
/-
  The second layer on a block of 128 token rows.  The body divides the hidden block by the second smoothing vector,
  views each row of 4096 as 64 groups of 64, takes each group's step from its largest magnitude, quantizes, and
  multiplies by the second weight block; the low-rank correction multiplies the unquantized hidden block.  Entry
  `(p, n)` of what it stores is the output row of the specification computed from row `p` of the hidden block.
-/
import proofs.«180111_j4947802325522_2_alg».proof.Proof.BodyLayer1

noncomputable section

namespace Cert.KernelIdeal.Body

open Idealize.ShloMosaic Idealize.ShloMosaic.ValueIdx Cert.KernelIdeal Cert.KernelIdeal.Gen Cert.LibRowBlocks Cert.QuantMlp

theorem roundeven_at {s : Shape} {φ : FTy} (a : FVec Ideal s φ) (i : s.Idx) :
    roundeven a i = Ideal.liftRound Ideal.roundHalfEven (a i) := rfl

theorem absf_at {s : Shape} {φ : FTy} (a : FVec Ideal s φ) (i : s.Idx) : absf a i = mag (a i) := rfl

/-- The body's maximum over a group, from −∞ (the accumulator's pattern is that of −∞). -/
theorem body_group_max (v37 : FVec Ideal S128x64x64 .f32) (hφ : FKind.Formats .f32)
    (hacc : (0xFF800000#32 : BitVec 32) = 0xFF800000#32) (p : Fin 128) (g : Fin 64) :
    multiReduction .maximumf [2] S128x64 v37 0xFF800000#32 reduces_S128x64x64_S128x64 hφ hacc (ix2 p g)
      = (Finset.univ : Finset (Fin 64)).fold max (Ideal.ofBits .f32 0xFF800000#32) (fun j => v37 (ix3 p g j)) :=
  group_max_vec v37 reduces_S128x64x64_S128x64 hφ hacc p g

/-- What the body stores, from the hidden block `h`, its quotient `hs` by the smoothing vector in groups, and the
    magnitudes `ha` of that quotient. -/
theorem pay_store (h : FVec Ideal S128x4096 .f32) (hs ha : FVec Ideal S128x64x64 .f32) (v56 : FVec Ideal S4096x1024 .bf16)
    (v59 : FVec Ideal S4096x32 .bf16) (v63 : FVec Ideal S32x1024 .bf16) (v67 : FVec Ideal S1x1024 .f32)
    (p : Fin 128) (n : Fin 1024) :
    k0_pay1 (F := Ideal) h hs ha v56 v59 v63 v67 (ix2 p n)
      = ((∑ k : Fin 4096,
            quant (hs (ix3 p (grp64 k) (pos64 k)))
              (Ideal.div (max ((Finset.univ : Finset (Fin 64)).fold max (lit 0xFF800000#32) fun j => ha (ix3 p (grp64 k) j))
                (lit 0x358637BD#32)) (lit 0x40E00000#32)) * v56 (ix2 k n))
          + ∑ r : Fin 32, (∑ k : Fin 4096, h (ix2 p k) * v59 (ix2 k r)) * v63 (ix2 r n)) + v67 (ix2 (0 : Fin 1) n) := by
  unfold k0_pay1
  simp only [shapeCast_self, addf_apply, mulf_apply, divf_apply, maximumf_apply, minimumf_apply, roundeven_at, broadcast_apply,
    truncf_apply, dot4_apply, dot5_apply, dot6_apply, broadcastTo_1b_ab_apply, cast_groups_to_row_at, spread_last_axis,
    cast_trailing_unit]
  refine congrArg₂ (· + ·) (congrArg₂ (· + ·) (Finset.sum_congr rfl fun k _ => ?_) rfl) rfl
  rw [body_group_max]
  rfl

/-- The hidden block divided by the smoothing vector, in groups: place `j` of group `g` of row `p`. -/
theorem pay_quot (v0 : FVec Ideal S128x1024 .bf16) (v2 : FVec Ideal S1024x4096 .bf16) (v5 : FVec Ideal S128x1024 .bf16)
    (v7 : FVec Ideal S1024x32 .bf16) (v11 : FVec Ideal S32x4096 .bf16) (v15 v32 : FVec Ideal S1x4096 .f32)
    (p : Fin 128) (g j : Fin 64) :
    k0_pay3 (F := Ideal) v0 v2 v5 v7 v11 v15 v32 (ix3 p g j)
      = Ideal.div (k0_pay2 (F := Ideal) v0 v2 v5 v7 v11 v15 (ix2 p (at64 g j))) (v32 (ix2 (0 : Fin 1) (at64 g j))) := by
  unfold k0_pay3
  simp only [cast_row_to_groups_at, divf_apply, shapeCast_self, broadcastTo_1b_ab_apply]

/-- Its magnitudes. -/
theorem pay_mag (v0 : FVec Ideal S128x1024 .bf16) (v2 : FVec Ideal S1024x4096 .bf16) (v5 : FVec Ideal S128x1024 .bf16)
    (v7 : FVec Ideal S1024x32 .bf16) (v11 : FVec Ideal S32x4096 .bf16) (v15 v32 : FVec Ideal S1x4096 .f32)
    (p : Fin 128) (g j : Fin 64) :
    k0_pay4 (F := Ideal) v0 v2 v5 v7 v11 v15 v32 (ix3 p g j) = mag (k0_pay3 (F := Ideal) v0 v2 v5 v7 v11 v15 v32 (ix3 p g j)) := rfl

/-- What the body stores at row `p` and output unit `n`: the output row of the hidden block's row `p`. -/
theorem pay_output (v0 : FVec Ideal S128x1024 .bf16) (v2 : FVec Ideal S1024x4096 .bf16) (v5 : FVec Ideal S128x1024 .bf16)
    (v7 : FVec Ideal S1024x32 .bf16) (v11 : FVec Ideal S32x4096 .bf16) (v15 v32 : FVec Ideal S1x4096 .f32)
    (v56 : FVec Ideal S4096x1024 .bf16) (v59 : FVec Ideal S4096x32 .bf16) (v63 : FVec Ideal S32x1024 .bf16)
    (v67 : FVec Ideal S1x1024 .f32) (p : Fin 128) (n : Fin 1024) :
    k0_pay1 (F := Ideal) (k0_pay2 v0 v2 v5 v7 v11 v15) (k0_pay3 v0 v2 v5 v7 v11 v15 v32) (k0_pay4 v0 v2 v5 v7 v11 v15 v32)
        v56 v59 v63 v67 (ix2 p n)
      = output (fun k => k0_pay2 (F := Ideal) v0 v2 v5 v7 v11 v15 (ix2 p k)) (fun k => v32 (ix2 (0 : Fin 1) k))
          (fun n k => v56 (ix2 k n)) (fun r k => v59 (ix2 k r)) (fun n r => v63 (ix2 r n)) (fun n => v67 (ix2 (0 : Fin 1) n)) n := by
  rw [pay_store]
  simp only [pay_mag, pay_quot, at64_grp_pos]
  rfl

end Cert.KernelIdeal.Body

end
-- ==== Proof.Result.lean ====
/-
  The result of the two-layer block as ONE function of the thirteen argument arrays, entry by entry: entry `(t, n)` is
  the output row of the specification computed from the hidden row of token `t`.  The quantized first-layer input and
  the two dequantized weight matrices enter as the arrays the reference's first host operations compute from the
  arguments; both programs compute them by the same operations, so they stay unopened.
-/
import proofs.«180111_j4947802325522_2_alg».proof.Proof.Gen.ReferenceIdeal.Read
import proofs.«180111_j4947802325522_2_alg».proof.Proof.Spec

noncomputable section

namespace Cert.QuantMlp

open Idealize.ShloMosaic Idealize.ShloMosaic.ValueIdx Cert.ReferenceIdeal Cert.ReferenceIdeal.Read Cert.LibRowBlocks

/-- The hidden row of token `t`. -/
def hiddenRow (x0 : (⟨S16384x1024, .f32⟩ : BufTy).Contents (Elt Ideal)) (x1 : (⟨S4096x1024, .i32⟩ : BufTy).Contents (Elt Ideal)) (x2 : (⟨S4096x16, .f32⟩ : BufTy).Contents (Elt Ideal)) (x3 : (⟨S1024, .f32⟩ : BufTy).Contents (Elt Ideal)) (x4 : (⟨S32x1024, .f32⟩ : BufTy).Contents (Elt Ideal)) (x5 : (⟨S4096x32, .f32⟩ : BufTy).Contents (Elt Ideal)) (x6 : (⟨S4096, .f32⟩ : BufTy).Contents (Elt Ideal))
    (t : Fin 16384) : Fin 4096 → EReal :=
  hidden (fun d => val_main_v17 (F := Ideal) x0 x3 (ix2 t d)) (fun d => x0 (ix2 t d))
    (fun o d => val_main_v23 (F := Ideal) x1 x2 (ix2 o d)) (fun r d => x4 (ix2 r d)) (fun o r => x5 (ix2 o r)) (fun o => x6 (ix1 o))

/-- The result at token `t` and output unit `n`. -/
def resultAt (x0 : (⟨S16384x1024, .f32⟩ : BufTy).Contents (Elt Ideal)) (x1 : (⟨S4096x1024, .i32⟩ : BufTy).Contents (Elt Ideal)) (x2 : (⟨S4096x16, .f32⟩ : BufTy).Contents (Elt Ideal)) (x3 : (⟨S1024, .f32⟩ : BufTy).Contents (Elt Ideal)) (x4 : (⟨S32x1024, .f32⟩ : BufTy).Contents (Elt Ideal)) (x5 : (⟨S4096x32, .f32⟩ : BufTy).Contents (Elt Ideal)) (x6 : (⟨S4096, .f32⟩ : BufTy).Contents (Elt Ideal)) (x7 : (⟨S1024x4096, .i32⟩ : BufTy).Contents (Elt Ideal)) (x8 : (⟨S1024x64, .f32⟩ : BufTy).Contents (Elt Ideal)) (x9 : (⟨S4096, .f32⟩ : BufTy).Contents (Elt Ideal)) (x10 : (⟨S32x4096, .f32⟩ : BufTy).Contents (Elt Ideal)) (x11 : (⟨S1024x32, .f32⟩ : BufTy).Contents (Elt Ideal)) (x12 : (⟨S1024, .f32⟩ : BufTy).Contents (Elt Ideal))
    (t : Fin 16384) (n : Fin 1024) : EReal :=
  output (hiddenRow x0 x1 x2 x3 x4 x5 x6 t) (fun k => x9 (ix1 k)) (fun n k => val_main_v67 (F := Ideal) x7 x8 (ix2 n k))
    (fun r k => x10 (ix2 r k)) (fun n r => x11 (ix2 n r)) (fun n => x12 (ix1 n)) n

/-- The whole result array. -/
def result (x0 : (⟨S16384x1024, .f32⟩ : BufTy).Contents (Elt Ideal)) (x1 : (⟨S4096x1024, .i32⟩ : BufTy).Contents (Elt Ideal)) (x2 : (⟨S4096x16, .f32⟩ : BufTy).Contents (Elt Ideal)) (x3 : (⟨S1024, .f32⟩ : BufTy).Contents (Elt Ideal)) (x4 : (⟨S32x1024, .f32⟩ : BufTy).Contents (Elt Ideal)) (x5 : (⟨S4096x32, .f32⟩ : BufTy).Contents (Elt Ideal)) (x6 : (⟨S4096, .f32⟩ : BufTy).Contents (Elt Ideal)) (x7 : (⟨S1024x4096, .i32⟩ : BufTy).Contents (Elt Ideal)) (x8 : (⟨S1024x64, .f32⟩ : BufTy).Contents (Elt Ideal)) (x9 : (⟨S4096, .f32⟩ : BufTy).Contents (Elt Ideal)) (x10 : (⟨S32x4096, .f32⟩ : BufTy).Contents (Elt Ideal)) (x11 : (⟨S1024x32, .f32⟩ : BufTy).Contents (Elt Ideal)) (x12 : (⟨S1024, .f32⟩ : BufTy).Contents (Elt Ideal)) :
    S16384x1024.Idx → EReal :=
  fun i => resultAt x0 x1 x2 x3 x4 x5 x6 x7 x8 x9 x10 x11 x12 ⟨(i 0).val, (i 0).isLt⟩ ⟨(i 1).val, (i 1).isLt⟩

theorem result_at (x0 : (⟨S16384x1024, .f32⟩ : BufTy).Contents (Elt Ideal)) (x1 : (⟨S4096x1024, .i32⟩ : BufTy).Contents (Elt Ideal)) (x2 : (⟨S4096x16, .f32⟩ : BufTy).Contents (Elt Ideal)) (x3 : (⟨S1024, .f32⟩ : BufTy).Contents (Elt Ideal)) (x4 : (⟨S32x1024, .f32⟩ : BufTy).Contents (Elt Ideal)) (x5 : (⟨S4096x32, .f32⟩ : BufTy).Contents (Elt Ideal)) (x6 : (⟨S4096, .f32⟩ : BufTy).Contents (Elt Ideal)) (x7 : (⟨S1024x4096, .i32⟩ : BufTy).Contents (Elt Ideal)) (x8 : (⟨S1024x64, .f32⟩ : BufTy).Contents (Elt Ideal)) (x9 : (⟨S4096, .f32⟩ : BufTy).Contents (Elt Ideal)) (x10 : (⟨S32x4096, .f32⟩ : BufTy).Contents (Elt Ideal)) (x11 : (⟨S1024x32, .f32⟩ : BufTy).Contents (Elt Ideal)) (x12 : (⟨S1024, .f32⟩ : BufTy).Contents (Elt Ideal))
    (t : Fin 16384) (n : Fin 1024) :
    result x0 x1 x2 x3 x4 x5 x6 x7 x8 x9 x10 x11 x12 (ix2 t n) = resultAt x0 x1 x2 x3 x4 x5 x6 x7 x8 x9 x10 x11 x12 t n := rfl

end Cert.QuantMlp

end
-- ==== Proof.PointValue.lean ====
/-
  One grid point, one entry.  If row `p` of the two input blocks is row `T` of the quantized input and of the input,
  and the parameter blocks are the whole (transposed) parameter matrices and one-row vectors, then the entry the body
  stores at `(p, n)` is the result function at token `T` and output unit `n`.
-/
import proofs.«180111_j4947802325522_2_alg».proof.Proof.BodyLayer2
import proofs.«180111_j4947802325522_2_alg».proof.Proof.Result

noncomputable section

namespace Cert.KernelIdeal.Body

open Idealize.ShloMosaic Idealize.ShloMosaic.ValueIdx Cert.KernelIdeal Cert.KernelIdeal.Gen Cert.LibRowBlocks Cert.QuantMlp

/-- The stored entry at row `p` of the block, as the result at the token `T` that row is. -/
theorem point_value
    (b0 b1 : FVec Ideal S128x1024 .bf16) (b2 : FVec Ideal S1024x4096 .bf16) (b3 : FVec Ideal S1024x32 .bf16)
    (b4 : FVec Ideal S32x4096 .bf16) (b5 b6 : FVec Ideal S1x4096 .f32) (b7 : FVec Ideal S4096x1024 .bf16)
    (b8 : FVec Ideal S4096x32 .bf16) (b9 : FVec Ideal S32x1024 .bf16) (b10 : FVec Ideal S1x1024 .f32)
    (x0 : (⟨S16384x1024, .f32⟩ : BufTy).Contents (Elt Ideal)) (x1 : (⟨S4096x1024, .i32⟩ : BufTy).Contents (Elt Ideal)) (x2 : (⟨S4096x16, .f32⟩ : BufTy).Contents (Elt Ideal)) (x3 : (⟨S1024, .f32⟩ : BufTy).Contents (Elt Ideal)) (x4 : (⟨S32x1024, .f32⟩ : BufTy).Contents (Elt Ideal)) (x5 : (⟨S4096x32, .f32⟩ : BufTy).Contents (Elt Ideal)) (x6 : (⟨S4096, .f32⟩ : BufTy).Contents (Elt Ideal)) (x7 : (⟨S1024x4096, .i32⟩ : BufTy).Contents (Elt Ideal)) (x8 : (⟨S1024x64, .f32⟩ : BufTy).Contents (Elt Ideal)) (x9 : (⟨S4096, .f32⟩ : BufTy).Contents (Elt Ideal)) (x10 : (⟨S32x4096, .f32⟩ : BufTy).Contents (Elt Ideal)) (x11 : (⟨S1024x32, .f32⟩ : BufTy).Contents (Elt Ideal)) (x12 : (⟨S1024, .f32⟩ : BufTy).Contents (Elt Ideal))
    (p : Fin 128) (n : Fin 1024) (T : Fin 16384)
    (h0 : ∀ d : Fin 1024, b0 (ix2 p d) = Cert.ReferenceIdeal.Read.val_main_v17 (F := Ideal) x0 x3 (ix2 T d))
    (h1 : ∀ d : Fin 1024, b1 (ix2 p d) = x0 (ix2 T d))
    (h2 : ∀ (d : Fin 1024) (o : Fin 4096), b2 (ix2 d o) = Cert.ReferenceIdeal.Read.val_main_v23 (F := Ideal) x1 x2 (ix2 o d))
    (h3 : ∀ (d : Fin 1024) (r : Fin 32), b3 (ix2 d r) = x4 (ix2 r d))
    (h4 : ∀ (r : Fin 32) (o : Fin 4096), b4 (ix2 r o) = x5 (ix2 o r))
    (h5 : ∀ o : Fin 4096, b5 (ix2 (0 : Fin 1) o) = x6 (ix1 o))
    (h6 : ∀ k : Fin 4096, b6 (ix2 (0 : Fin 1) k) = x9 (ix1 k))
    (h7 : ∀ (k : Fin 4096) (n : Fin 1024), b7 (ix2 k n) = Cert.ReferenceIdeal.Read.val_main_v67 (F := Ideal) x7 x8 (ix2 n k))
    (h8 : ∀ (k : Fin 4096) (r : Fin 32), b8 (ix2 k r) = x10 (ix2 r k))
    (h9 : ∀ (r : Fin 32) (n : Fin 1024), b9 (ix2 r n) = x11 (ix2 n r))
    (h10 : ∀ n : Fin 1024, b10 (ix2 (0 : Fin 1) n) = x12 (ix1 n)) :
    k0_pay1 (F := Ideal) (k0_pay2 b0 b2 b1 b3 b4 b5) (k0_pay3 b0 b2 b1 b3 b4 b5 b6) (k0_pay4 b0 b2 b1 b3 b4 b5 b6) b7 b8 b9 b10
        (ix2 p n)
      = resultAt x0 x1 x2 x3 x4 x5 x6 x7 x8 x9 x10 x11 x12 T n := by
  rw [pay_output]
  simp only [pay_hidden, h0, h1, h2, h3, h4, h5, h6, h7, h8, h9, h10]
  rfl

/-- The same at a block index `y` given by its coordinates. -/
theorem point_value_idx
    (b0 b1 : FVec Ideal S128x1024 .bf16) (b2 : FVec Ideal S1024x4096 .bf16) (b3 : FVec Ideal S1024x32 .bf16)
    (b4 : FVec Ideal S32x4096 .bf16) (b5 b6 : FVec Ideal S1x4096 .f32) (b7 : FVec Ideal S4096x1024 .bf16)
    (b8 : FVec Ideal S4096x32 .bf16) (b9 : FVec Ideal S32x1024 .bf16) (b10 : FVec Ideal S1x1024 .f32)
    (x0 : (⟨S16384x1024, .f32⟩ : BufTy).Contents (Elt Ideal)) (x1 : (⟨S4096x1024, .i32⟩ : BufTy).Contents (Elt Ideal)) (x2 : (⟨S4096x16, .f32⟩ : BufTy).Contents (Elt Ideal)) (x3 : (⟨S1024, .f32⟩ : BufTy).Contents (Elt Ideal)) (x4 : (⟨S32x1024, .f32⟩ : BufTy).Contents (Elt Ideal)) (x5 : (⟨S4096x32, .f32⟩ : BufTy).Contents (Elt Ideal)) (x6 : (⟨S4096, .f32⟩ : BufTy).Contents (Elt Ideal)) (x7 : (⟨S1024x4096, .i32⟩ : BufTy).Contents (Elt Ideal)) (x8 : (⟨S1024x64, .f32⟩ : BufTy).Contents (Elt Ideal)) (x9 : (⟨S4096, .f32⟩ : BufTy).Contents (Elt Ideal)) (x10 : (⟨S32x4096, .f32⟩ : BufTy).Contents (Elt Ideal)) (x11 : (⟨S1024x32, .f32⟩ : BufTy).Contents (Elt Ideal)) (x12 : (⟨S1024, .f32⟩ : BufTy).Contents (Elt Ideal))
    (y : S128x1024.Idx) (T : Fin 16384)
    (h0 : ∀ d : Fin 1024, b0 (ix2 (⟨(y 0).val, (y 0).isLt⟩ : Fin 128) d) = Cert.ReferenceIdeal.Read.val_main_v17 (F := Ideal) x0 x3 (ix2 T d))
    (h1 : ∀ d : Fin 1024, b1 (ix2 (⟨(y 0).val, (y 0).isLt⟩ : Fin 128) d) = x0 (ix2 T d))
    (h2 : ∀ (d : Fin 1024) (o : Fin 4096), b2 (ix2 d o) = Cert.ReferenceIdeal.Read.val_main_v23 (F := Ideal) x1 x2 (ix2 o d))
    (h3 : ∀ (d : Fin 1024) (r : Fin 32), b3 (ix2 d r) = x4 (ix2 r d))
    (h4 : ∀ (r : Fin 32) (o : Fin 4096), b4 (ix2 r o) = x5 (ix2 o r))
    (h5 : ∀ o : Fin 4096, b5 (ix2 (0 : Fin 1) o) = x6 (ix1 o))
    (h6 : ∀ k : Fin 4096, b6 (ix2 (0 : Fin 1) k) = x9 (ix1 k))
    (h7 : ∀ (k : Fin 4096) (n : Fin 1024), b7 (ix2 k n) = Cert.ReferenceIdeal.Read.val_main_v67 (F := Ideal) x7 x8 (ix2 n k))
    (h8 : ∀ (k : Fin 4096) (r : Fin 32), b8 (ix2 k r) = x10 (ix2 r k))
    (h9 : ∀ (r : Fin 32) (n : Fin 1024), b9 (ix2 r n) = x11 (ix2 n r))
    (h10 : ∀ n : Fin 1024, b10 (ix2 (0 : Fin 1) n) = x12 (ix1 n)) :
    k0_pay1 (F := Ideal) (k0_pay2 b0 b2 b1 b3 b4 b5) (k0_pay3 b0 b2 b1 b3 b4 b5 b6) (k0_pay4 b0 b2 b1 b3 b4 b5 b6) b7 b8 b9 b10 y
      = resultAt x0 x1 x2 x3 x4 x5 x6 x7 x8 x9 x10 x11 x12 T ⟨(y 1).val, (y 1).isLt⟩ := by
  have ey : y = ix2 (⟨(y 0).val, (y 0).isLt⟩ : Fin 128) (⟨(y 1).val, (y 1).isLt⟩ : Fin 1024) :=
    funext fun a => Fin.ext (by match a with | ⟨0, _⟩ => rfl | ⟨1, _⟩ => rfl)
  exact (congrArg (k0_pay1 (F := Ideal) (k0_pay2 b0 b2 b1 b3 b4 b5) (k0_pay3 b0 b2 b1 b3 b4 b5 b6) (k0_pay4 b0 b2 b1 b3 b4 b5 b6)
      b7 b8 b9 b10) ey).trans
    (point_value b0 b1 b2 b3 b4 b5 b6 b7 b8 b9 b10 x0 x1 x2 x3 x4 x5 x6 x7 x8 x9 x10 x11 x12 _ _ T h0 h1 h2 h3 h4 h5 h6 h7 h8 h9 h10)

end Cert.KernelIdeal.Body

end
-- ==== Proof.HostArrays.lean ====
/-
  What the kernel's windows find in their arrays when the region is entered.  The program prepares them on the
  host: the quantized input and the two dequantized weight matrices by the very operations the reference applies
  (named here by the reference's own stage functions of the arguments, and never opened), the weight and low-rank
  matrices transposed, the three vectors as one-row matrices; changes of float format are the identity.
-/
import proofs.«180111_j4947802325522_2_alg».proof.Proof.Gen.KernelIdeal.Frame
import proofs.«180111_j4947802325522_2_alg».proof.Proof.Gen.ReferenceIdeal.Read
import Idealize.ShloMosaic.Lib.StableHlo.Run
import Idealize.ShloMosaic.Lib.ValueLayout

noncomputable section

namespace Cert.KernelIdeal.HostSide

open Idealize.ShloMosaic Idealize.ShloMosaic.ValueIdx Idealize.ShloMosaic.TcCoe Idealize.SL.Sem Idealize.ShloMosaic.StableHlo
open Cert.KernelIdeal Cert.KernelIdeal.Gen

variable (m : (ℓ : Loc nD τ sig) → Buf (Elt Ideal) ℓ)

/-- Reads one buffer after the host operations before the region. -/
local macro "host_value" : tactic => `(tactic| (
  dsimp only [V]
  simp only [hostOps0, hostOps0_1, hostOps0_2, hostOps0_3, hostOps0_4, List.flatten_cons, List.flatten_nil, List.append_nil,
    List.cons_append, List.nil_append]
  after_results_simp
  try rfl))

/-- The first window's array is the quantized input, as the reference computes it. -/
theorem xq_at (c : Dev nD) (T : Fin 16384) (d : Fin 1024) :
    (V m c main_v45 : S16384x1024.Idx → EReal) (ix2 T d) = Cert.ReferenceIdeal.Read.val_main_v17 (F := Ideal) (m ((c : Thread nD τ).loc main_arg0)) (m ((c : Thread nD τ).loc main_arg3)) (ix2 T d) := by
  have e : (V m c main_v45 : S16384x1024.Idx → EReal)
      = (truncf .bf16 (Cert.ReferenceIdeal.Read.val_main_v17 (F := Ideal) (m ((c : Thread nD τ).loc main_arg0)) (m ((c : Thread nD τ).loc main_arg3)) : FVec Ideal S16384x1024 .f32) bitsLt_bf16_f32 : FVec Ideal S16384x1024 .bf16) := by
    host_value
  exact congrFun e (ix2 T d)

/-- The second window's array is the input. -/
theorem x_at (c : Dev nD) (T : Fin 16384) (d : Fin 1024) :
    (V m c main_v46 : S16384x1024.Idx → EReal) (ix2 T d) = ((m ((c : Thread nD τ).loc main_arg0)) : FVec Ideal S16384x1024 .f32) (ix2 T d) := by
  have e : (V m c main_v46 : S16384x1024.Idx → EReal)
      = (truncf .bf16 ((m ((c : Thread nD τ).loc main_arg0)) : FVec Ideal S16384x1024 .f32) bitsLt_bf16_f32 : FVec Ideal S16384x1024 .bf16) := by
    host_value
  exact congrFun e (ix2 T d)

/-- The first weight window: the dequantized first weight matrix, transposed. -/
theorem w1_at (c : Dev nD) (d : Fin 1024) (o : Fin 4096) :
    (V m c main_v7 : S1024x4096.Idx → EReal) (ix2 d o) = Cert.ReferenceIdeal.Read.val_main_v23 (F := Ideal) (m ((c : Thread nD τ).loc main_arg1)) (m ((c : Thread nD τ).loc main_arg2)) (ix2 o d) := by
  have e : (V m c main_v7 : S1024x4096.Idx → EReal)
      = (truncf .bf16 (transpose S1024x4096 [1, 0] (Cert.ReferenceIdeal.Read.val_main_v23 (F := Ideal) (m ((c : Thread nD τ).loc main_arg1)) (m ((c : Thread nD τ).loc main_arg2)) : FVec Ideal S4096x1024 .f32) transposes_S4096x1024_S1024x4096_1_0) bitsLt_bf16_f32 : FVec Ideal S1024x4096 .bf16) := by
    host_value
  exact (congrFun e (ix2 d o)).trans (transpose_ix2_apply (Cert.ReferenceIdeal.Read.val_main_v23 (F := Ideal) (m ((c : Thread nD τ).loc main_arg1)) (m ((c : Thread nD τ).loc main_arg2)) : FVec Ideal S4096x1024 .f32) transposes_S4096x1024_S1024x4096_1_0 d o)

/-- The first down-projection, transposed. -/
theorem ld1_at (c : Dev nD) (d : Fin 1024) (r : Fin 32) :
    (V m c main_v17 : S1024x32.Idx → EReal) (ix2 d r) = ((m ((c : Thread nD τ).loc main_arg4)) : FVec Ideal S32x1024 .f32) (ix2 r d) := by
  have e : (V m c main_v17 : S1024x32.Idx → EReal)
      = (truncf .bf16 (transpose S1024x32 [1, 0] ((m ((c : Thread nD τ).loc main_arg4)) : FVec Ideal S32x1024 .f32) transposes_S32x1024_S1024x32_1_0) bitsLt_bf16_f32 : FVec Ideal S1024x32 .bf16) := by
    host_value
  exact (congrFun e (ix2 d r)).trans (transpose_ix2_apply ((m ((c : Thread nD τ).loc main_arg4)) : FVec Ideal S32x1024 .f32) transposes_S32x1024_S1024x32_1_0 d r)

/-- The first up-projection, transposed. -/
theorem lu1_at (c : Dev nD) (r : Fin 32) (o : Fin 4096) :
    (V m c main_v19 : S32x4096.Idx → EReal) (ix2 r o) = ((m ((c : Thread nD τ).loc main_arg5)) : FVec Ideal S4096x32 .f32) (ix2 o r) := by
  have e : (V m c main_v19 : S32x4096.Idx → EReal)
      = (truncf .bf16 (transpose S32x4096 [1, 0] ((m ((c : Thread nD τ).loc main_arg5)) : FVec Ideal S4096x32 .f32) transposes_S4096x32_S32x4096_1_0) bitsLt_bf16_f32 : FVec Ideal S32x4096 .bf16) := by
    host_value
  exact (congrFun e (ix2 r o)).trans (transpose_ix2_apply ((m ((c : Thread nD τ).loc main_arg5)) : FVec Ideal S4096x32 .f32) transposes_S4096x32_S32x4096_1_0 r o)

/-- The first bias as a one-row matrix. -/
theorem b1_at (c : Dev nD) (o : Fin 4096) :
    (V m c main_v24 : S1x4096.Idx → EReal) (ix2 (0 : Fin 1) o) = ((m ((c : Thread nD τ).loc main_arg6)) : FVec Ideal S4096 .f32) (ix1 o) := by
  have e : (V m c main_v24 : S1x4096.Idx → EReal)
      = (shapeCast S1x4096 ((m ((c : Thread nD τ).loc main_arg6)) : FVec Ideal S4096 .f32) shapeCasts_S4096_S1x4096 : FVec Ideal S1x4096 .f32) := by
    host_value
  exact (congrFun e (ix2 (0 : Fin 1) o)).trans (shapeCast_a_1a_apply _ _ (0 : Fin 1) o)

/-- The second smoothing vector as a one-row matrix. -/
theorem sm2_at (c : Dev nD) (o : Fin 4096) :
    (V m c main_v26 : S1x4096.Idx → EReal) (ix2 (0 : Fin 1) o) = ((m ((c : Thread nD τ).loc main_arg9)) : FVec Ideal S4096 .f32) (ix1 o) := by
  have e : (V m c main_v26 : S1x4096.Idx → EReal)
      = (shapeCast S1x4096 ((m ((c : Thread nD τ).loc main_arg9)) : FVec Ideal S4096 .f32) shapeCasts_S4096_S1x4096 : FVec Ideal S1x4096 .f32) := by
    host_value
  exact (congrFun e (ix2 (0 : Fin 1) o)).trans (shapeCast_a_1a_apply _ _ (0 : Fin 1) o)

/-- The second weight window: the dequantized second weight matrix, transposed. -/
theorem w2_at (c : Dev nD) (k : Fin 4096) (n : Fin 1024) :
    (V m c main_v15 : S4096x1024.Idx → EReal) (ix2 k n) = Cert.ReferenceIdeal.Read.val_main_v67 (F := Ideal) (m ((c : Thread nD τ).loc main_arg7)) (m ((c : Thread nD τ).loc main_arg8)) (ix2 n k) := by
  have e : (V m c main_v15 : S4096x1024.Idx → EReal)
      = (truncf .bf16 (transpose S4096x1024 [1, 0] (Cert.ReferenceIdeal.Read.val_main_v67 (F := Ideal) (m ((c : Thread nD τ).loc main_arg7)) (m ((c : Thread nD τ).loc main_arg8)) : FVec Ideal S1024x4096 .f32) transposes_S1024x4096_S4096x1024_1_0) bitsLt_bf16_f32 : FVec Ideal S4096x1024 .bf16) := by
    host_value
  exact (congrFun e (ix2 k n)).trans (transpose_ix2_apply (Cert.ReferenceIdeal.Read.val_main_v67 (F := Ideal) (m ((c : Thread nD τ).loc main_arg7)) (m ((c : Thread nD τ).loc main_arg8)) : FVec Ideal S1024x4096 .f32) transposes_S1024x4096_S4096x1024_1_0 k n)

/-- The second down-projection, transposed. -/
theorem ld2_at (c : Dev nD) (k : Fin 4096) (r : Fin 32) :
    (V m c main_v21 : S4096x32.Idx → EReal) (ix2 k r) = ((m ((c : Thread nD τ).loc main_arg10)) : FVec Ideal S32x4096 .f32) (ix2 r k) := by
  have e : (V m c main_v21 : S4096x32.Idx → EReal)
      = (truncf .bf16 (transpose S4096x32 [1, 0] ((m ((c : Thread nD τ).loc main_arg10)) : FVec Ideal S32x4096 .f32) transposes_S32x4096_S4096x32_1_0) bitsLt_bf16_f32 : FVec Ideal S4096x32 .bf16) := by
    host_value
  exact (congrFun e (ix2 k r)).trans (transpose_ix2_apply ((m ((c : Thread nD τ).loc main_arg10)) : FVec Ideal S32x4096 .f32) transposes_S32x4096_S4096x32_1_0 k r)

/-- The second up-projection, transposed. -/
theorem lu2_at (c : Dev nD) (r : Fin 32) (n : Fin 1024) :
    (V m c main_v23 : S32x1024.Idx → EReal) (ix2 r n) = ((m ((c : Thread nD τ).loc main_arg11)) : FVec Ideal S1024x32 .f32) (ix2 n r) := by
  have e : (V m c main_v23 : S32x1024.Idx → EReal)
      = (truncf .bf16 (transpose S32x1024 [1, 0] ((m ((c : Thread nD τ).loc main_arg11)) : FVec Ideal S1024x32 .f32) transposes_S1024x32_S32x1024_1_0) bitsLt_bf16_f32 : FVec Ideal S32x1024 .bf16) := by
    host_value
  exact (congrFun e (ix2 r n)).trans (transpose_ix2_apply ((m ((c : Thread nD τ).loc main_arg11)) : FVec Ideal S1024x32 .f32) transposes_S1024x32_S32x1024_1_0 r n)

/-- The second bias as a one-row matrix. -/
theorem b2_at (c : Dev nD) (n : Fin 1024) :
    (V m c main_v25 : S1x1024.Idx → EReal) (ix2 (0 : Fin 1) n) = ((m ((c : Thread nD τ).loc main_arg12)) : FVec Ideal S1024 .f32) (ix1 n) := by
  have e : (V m c main_v25 : S1x1024.Idx → EReal)
      = (shapeCast S1x1024 ((m ((c : Thread nD τ).loc main_arg12)) : FVec Ideal S1024 .f32) shapeCasts_S1024_S1x1024 : FVec Ideal S1x1024 .f32) := by
    host_value
  exact (congrFun e (ix2 (0 : Fin 1) n)).trans (shapeCast_a_1a_apply _ _ (0 : Fin 1) n)

end Cert.KernelIdeal.HostSide

end
-- ==== Proof.BlockReads.lean ====
/-
  What each window's block holds at a grid point.  Point `t` of 128 reads token rows `128 t … 128 t + 127` through the
  two input windows; every parameter window's one block is its whole array.  An entry of a block sits at block
  index × block size + its coordinate inside the block, on each axis.
-/
import proofs.«180111_j4947802325522_2_alg».proof.Proof.Gen.KernelIdeal.Frame
import proofs.«180111_j4947802325522_2_alg».proof.Proof.HostArrays

noncomputable section

namespace Cert.KernelIdeal.ArrayValue

open Idealize.ShloMosaic Idealize.ShloMosaic.ValueIdx Idealize.ShloMosaic.TcCoe Idealize.SL.Sem
open Cert.KernelIdeal Cert.KernelIdeal.Gen

variable (m : (ℓ : Loc nD τ sig) → Buf (Elt Ideal) ℓ)

/-- Window 0 moves one block of rows per point. -/
theorem index_0 : ∀ t : Fin cfg0.N, win0_0.index t (0 : Fin 2) = t.val ∧ win0_0.index t (1 : Fin 2) = 0 :=
  (by decide +kernel : ∀ t : Fin grid0.N, _)

/-- Window 1 moves one block of rows per point. -/
theorem index_1 : ∀ t : Fin cfg0.N, win0_1.index t (0 : Fin 2) = t.val ∧ win0_1.index t (1 : Fin 2) = 0 :=
  (by decide +kernel : ∀ t : Fin grid0.N, _)

/-- Window 11 moves one block of rows per point. -/
theorem index_11 : ∀ t : Fin cfg0.N, win0_11.index t (0 : Fin 2) = t.val ∧ win0_11.index t (1 : Fin 2) = 0 :=
  (by decide +kernel : ∀ t : Fin grid0.N, _)

/-- Window 2 stays at its one block. -/
theorem index_2 : ∀ t : Fin cfg0.N, win0_2.index t (0 : Fin 2) = 0 ∧ win0_2.index t (1 : Fin 2) = 0 :=
  (by decide +kernel : ∀ t : Fin grid0.N, _)

/-- Window 3 stays at its one block. -/
theorem index_3 : ∀ t : Fin cfg0.N, win0_3.index t (0 : Fin 2) = 0 ∧ win0_3.index t (1 : Fin 2) = 0 :=
  (by decide +kernel : ∀ t : Fin grid0.N, _)

/-- Window 4 stays at its one block. -/
theorem index_4 : ∀ t : Fin cfg0.N, win0_4.index t (0 : Fin 2) = 0 ∧ win0_4.index t (1 : Fin 2) = 0 :=
  (by decide +kernel : ∀ t : Fin grid0.N, _)

/-- Window 5 stays at its one block. -/
theorem index_5 : ∀ t : Fin cfg0.N, win0_5.index t (0 : Fin 2) = 0 ∧ win0_5.index t (1 : Fin 2) = 0 :=
  (by decide +kernel : ∀ t : Fin grid0.N, _)

/-- Window 6 stays at its one block. -/
theorem index_6 : ∀ t : Fin cfg0.N, win0_6.index t (0 : Fin 2) = 0 ∧ win0_6.index t (1 : Fin 2) = 0 :=
  (by decide +kernel : ∀ t : Fin grid0.N, _)

/-- Window 7 stays at its one block. -/
theorem index_7 : ∀ t : Fin cfg0.N, win0_7.index t (0 : Fin 2) = 0 ∧ win0_7.index t (1 : Fin 2) = 0 :=
  (by decide +kernel : ∀ t : Fin grid0.N, _)

/-- Window 8 stays at its one block. -/
theorem index_8 : ∀ t : Fin cfg0.N, win0_8.index t (0 : Fin 2) = 0 ∧ win0_8.index t (1 : Fin 2) = 0 :=
  (by decide +kernel : ∀ t : Fin grid0.N, _)

/-- Window 9 stays at its one block. -/
theorem index_9 : ∀ t : Fin cfg0.N, win0_9.index t (0 : Fin 2) = 0 ∧ win0_9.index t (1 : Fin 2) = 0 :=
  (by decide +kernel : ∀ t : Fin grid0.N, _)

/-- Window 10 stays at its one block. -/
theorem index_10 : ∀ t : Fin cfg0.N, win0_10.index t (0 : Fin 2) = 0 ∧ win0_10.index t (1 : Fin 2) = 0 :=
  (by decide +kernel : ∀ t : Fin grid0.N, _)

/-- Row `p` of the first input block at point `t` is row `128 t + p` of the quantized input. -/
theorem read_0 (c : Dev nD) (t : Fin cfg0.N) (p : Fin 128) (d : Fin 1024) (T : Fin 16384) (hT : T.val = t.val * 128 + p.val) :
    (iblk m c 0 t : S128x1024.Idx → EReal) (ix2 p d) = Cert.ReferenceIdeal.Read.val_main_v17 (F := Ideal) (m ((c : Thread nD τ).loc main_arg0)) (m ((c : Thread nD τ).loc main_arg3)) (ix2 T d) := by
  obtain ⟨e0, e1⟩ := index_0 t
  show (V m c main_v45) (((cfg0.win 0).blk t).view.emb (ix2 p d)) = _
  rw [show ((cfg0.win 0).blk t).view.emb (ix2 p d) = ix2 T d from funext fun a => Fin.ext (by
    match a with
    | ⟨0, _⟩ => show win0_0.index t (0 : Fin 2) * 128 + 1 * p.val = T.val; omega
    | ⟨1, _⟩ => show win0_0.index t (1 : Fin 2) * 1024 + 1 * d.val = d.val; omega)]
  exact HostSide.xq_at m c T d

/-- Row `p` of the second input block at point `t` is row `128 t + p` of the input. -/
theorem read_1 (c : Dev nD) (t : Fin cfg0.N) (p : Fin 128) (d : Fin 1024) (T : Fin 16384) (hT : T.val = t.val * 128 + p.val) :
    (iblk m c 1 t : S128x1024.Idx → EReal) (ix2 p d) = ((m ((c : Thread nD τ).loc main_arg0)) : FVec Ideal S16384x1024 .f32) (ix2 T d) := by
  obtain ⟨e0, e1⟩ := index_1 t
  show (V m c main_v46) (((cfg0.win 1).blk t).view.emb (ix2 p d)) = _
  rw [show ((cfg0.win 1).blk t).view.emb (ix2 p d) = ix2 T d from funext fun a => Fin.ext (by
    match a with
    | ⟨0, _⟩ => show win0_1.index t (0 : Fin 2) * 128 + 1 * p.val = T.val; omega
    | ⟨1, _⟩ => show win0_1.index t (1 : Fin 2) * 1024 + 1 * d.val = d.val; omega)]
  exact HostSide.x_at m c T d

/-- The first weight block is the whole transposed first weight matrix at every point. -/
theorem read_2 (c : Dev nD) (t : Fin cfg0.N) (d : Fin 1024) (o : Fin 4096) :
    (iblk m c 2 t : S1024x4096.Idx → EReal) (ix2 d o) = Cert.ReferenceIdeal.Read.val_main_v23 (F := Ideal) (m ((c : Thread nD τ).loc main_arg1)) (m ((c : Thread nD τ).loc main_arg2)) (ix2 o d) := by
  obtain ⟨e0, e1⟩ := index_2 t
  show (V m c main_v7) (((cfg0.win 2).blk t).view.emb (ix2 d o)) = _
  rw [show ((cfg0.win 2).blk t).view.emb (ix2 d o) = ix2 d o from funext fun a => Fin.ext (by
    match a with
    | ⟨0, _⟩ => show win0_2.index t (0 : Fin 2) * 1024 + 1 * d.val = d.val; omega
    | ⟨1, _⟩ => show win0_2.index t (1 : Fin 2) * 4096 + 1 * o.val = o.val; omega)]
  exact HostSide.w1_at m c d o

/-- The first down-projection block. -/
theorem read_3 (c : Dev nD) (t : Fin cfg0.N) (d : Fin 1024) (r : Fin 32) :
    (iblk m c 3 t : S1024x32.Idx → EReal) (ix2 d r) = ((m ((c : Thread nD τ).loc main_arg4)) : FVec Ideal S32x1024 .f32) (ix2 r d) := by
  obtain ⟨e0, e1⟩ := index_3 t
  show (V m c main_v17) (((cfg0.win 3).blk t).view.emb (ix2 d r)) = _
  rw [show ((cfg0.win 3).blk t).view.emb (ix2 d r) = ix2 d r from funext fun a => Fin.ext (by
    match a with
    | ⟨0, _⟩ => show win0_3.index t (0 : Fin 2) * 1024 + 1 * d.val = d.val; omega
    | ⟨1, _⟩ => show win0_3.index t (1 : Fin 2) * 32 + 1 * r.val = r.val; omega)]
  exact HostSide.ld1_at m c d r

/-- The first up-projection block. -/
theorem read_4 (c : Dev nD) (t : Fin cfg0.N) (r : Fin 32) (o : Fin 4096) :
    (iblk m c 4 t : S32x4096.Idx → EReal) (ix2 r o) = ((m ((c : Thread nD τ).loc main_arg5)) : FVec Ideal S4096x32 .f32) (ix2 o r) := by
  obtain ⟨e0, e1⟩ := index_4 t
  show (V m c main_v19) (((cfg0.win 4).blk t).view.emb (ix2 r o)) = _
  rw [show ((cfg0.win 4).blk t).view.emb (ix2 r o) = ix2 r o from funext fun a => Fin.ext (by
    match a with
    | ⟨0, _⟩ => show win0_4.index t (0 : Fin 2) * 32 + 1 * r.val = r.val; omega
    | ⟨1, _⟩ => show win0_4.index t (1 : Fin 2) * 4096 + 1 * o.val = o.val; omega)]
  exact HostSide.lu1_at m c r o

/-- The first bias block. -/
theorem read_5 (c : Dev nD) (t : Fin cfg0.N) (o : Fin 4096) :
    (iblk m c 5 t : S1x4096.Idx → EReal) (ix2 (0 : Fin 1) o) = ((m ((c : Thread nD τ).loc main_arg6)) : FVec Ideal S4096 .f32) (ix1 o) := by
  obtain ⟨e0, e1⟩ := index_5 t
  show (V m c main_v24) (((cfg0.win 5).blk t).view.emb (ix2 (0 : Fin 1) o)) = _
  rw [show ((cfg0.win 5).blk t).view.emb (ix2 (0 : Fin 1) o) = ix2 (0 : Fin 1) o from funext fun a => Fin.ext (by
    match a with
    | ⟨0, _⟩ => show win0_5.index t (0 : Fin 2) * 1 + 1 * 0 = 0; omega
    | ⟨1, _⟩ => show win0_5.index t (1 : Fin 2) * 4096 + 1 * o.val = o.val; omega)]
  exact HostSide.b1_at m c o

/-- The second smoothing block. -/
theorem read_6 (c : Dev nD) (t : Fin cfg0.N) (o : Fin 4096) :
    (iblk m c 6 t : S1x4096.Idx → EReal) (ix2 (0 : Fin 1) o) = ((m ((c : Thread nD τ).loc main_arg9)) : FVec Ideal S4096 .f32) (ix1 o) := by
  obtain ⟨e0, e1⟩ := index_6 t
  show (V m c main_v26) (((cfg0.win 6).blk t).view.emb (ix2 (0 : Fin 1) o)) = _
  rw [show ((cfg0.win 6).blk t).view.emb (ix2 (0 : Fin 1) o) = ix2 (0 : Fin 1) o from funext fun a => Fin.ext (by
    match a with
    | ⟨0, _⟩ => show win0_6.index t (0 : Fin 2) * 1 + 1 * 0 = 0; omega
    | ⟨1, _⟩ => show win0_6.index t (1 : Fin 2) * 4096 + 1 * o.val = o.val; omega)]
  exact HostSide.sm2_at m c o

/-- The second weight block is the whole transposed second weight matrix at every point. -/
theorem read_7 (c : Dev nD) (t : Fin cfg0.N) (k : Fin 4096) (n : Fin 1024) :
    (iblk m c 7 t : S4096x1024.Idx → EReal) (ix2 k n) = Cert.ReferenceIdeal.Read.val_main_v67 (F := Ideal) (m ((c : Thread nD τ).loc main_arg7)) (m ((c : Thread nD τ).loc main_arg8)) (ix2 n k) := by
  obtain ⟨e0, e1⟩ := index_7 t
  show (V m c main_v15) (((cfg0.win 7).blk t).view.emb (ix2 k n)) = _
  rw [show ((cfg0.win 7).blk t).view.emb (ix2 k n) = ix2 k n from funext fun a => Fin.ext (by
    match a with
    | ⟨0, _⟩ => show win0_7.index t (0 : Fin 2) * 4096 + 1 * k.val = k.val; omega
    | ⟨1, _⟩ => show win0_7.index t (1 : Fin 2) * 1024 + 1 * n.val = n.val; omega)]
  exact HostSide.w2_at m c k n

/-- The second down-projection block. -/
theorem read_8 (c : Dev nD) (t : Fin cfg0.N) (k : Fin 4096) (r : Fin 32) :
    (iblk m c 8 t : S4096x32.Idx → EReal) (ix2 k r) = ((m ((c : Thread nD τ).loc main_arg10)) : FVec Ideal S32x4096 .f32) (ix2 r k) := by
  obtain ⟨e0, e1⟩ := index_8 t
  show (V m c main_v21) (((cfg0.win 8).blk t).view.emb (ix2 k r)) = _
  rw [show ((cfg0.win 8).blk t).view.emb (ix2 k r) = ix2 k r from funext fun a => Fin.ext (by
    match a with
    | ⟨0, _⟩ => show win0_8.index t (0 : Fin 2) * 4096 + 1 * k.val = k.val; omega
    | ⟨1, _⟩ => show win0_8.index t (1 : Fin 2) * 32 + 1 * r.val = r.val; omega)]
  exact HostSide.ld2_at m c k r

/-- The second up-projection block. -/
theorem read_9 (c : Dev nD) (t : Fin cfg0.N) (r : Fin 32) (n : Fin 1024) :
    (iblk m c 9 t : S32x1024.Idx → EReal) (ix2 r n) = ((m ((c : Thread nD τ).loc main_arg11)) : FVec Ideal S1024x32 .f32) (ix2 n r) := by
  obtain ⟨e0, e1⟩ := index_9 t
  show (V m c main_v23) (((cfg0.win 9).blk t).view.emb (ix2 r n)) = _
  rw [show ((cfg0.win 9).blk t).view.emb (ix2 r n) = ix2 r n from funext fun a => Fin.ext (by
    match a with
    | ⟨0, _⟩ => show win0_9.index t (0 : Fin 2) * 32 + 1 * r.val = r.val; omega
    | ⟨1, _⟩ => show win0_9.index t (1 : Fin 2) * 1024 + 1 * n.val = n.val; omega)]
  exact HostSide.lu2_at m c r n

/-- The second bias block. -/
theorem read_10 (c : Dev nD) (t : Fin cfg0.N) (n : Fin 1024) :
    (iblk m c 10 t : S1x1024.Idx → EReal) (ix2 (0 : Fin 1) n) = ((m ((c : Thread nD τ).loc main_arg12)) : FVec Ideal S1024 .f32) (ix1 n) := by
  obtain ⟨e0, e1⟩ := index_10 t
  show (V m c main_v25) (((cfg0.win 10).blk t).view.emb (ix2 (0 : Fin 1) n)) = _
  rw [show ((cfg0.win 10).blk t).view.emb (ix2 (0 : Fin 1) n) = ix2 (0 : Fin 1) n from funext fun a => Fin.ext (by
    match a with
    | ⟨0, _⟩ => show win0_10.index t (0 : Fin 2) * 1 + 1 * 0 = 0; omega
    | ⟨1, _⟩ => show win0_10.index t (1 : Fin 2) * 1024 + 1 * n.val = n.val; omega)]
  exact HostSide.b2_at m c n

end Cert.KernelIdeal.ArrayValue

end
-- ==== Proof.BlockValue.lean ====
/-
  From blocks to the array.  Grid point `t` of 128 handles token rows `128 t … 128 t + 127`: its two input blocks are
  those rows of the quantized input and of the input, every parameter block is the whole parameter array at every
  point, and it writes those rows of the result.  So what point `t` writes back is the result function read through
  its block, the 128 blocks cover the array (row `r` belongs to point `r / 128`), and the array the run leaves is the
  result function of the arguments.
-/
import proofs.«180111_j4947802325522_2_alg».proof.Proof.Gen.KernelIdeal.Value
import proofs.«180111_j4947802325522_2_alg».proof.Proof.PointValue
import proofs.«180111_j4947802325522_2_alg».proof.Proof.BlockReads

noncomputable section

namespace Cert.KernelIdeal.ArrayValue

open Idealize.ShloMosaic Idealize.ShloMosaic.ValueIdx Idealize.ShloMosaic.TcCoe Idealize.SL.Sem
open Cert.KernelIdeal Cert.KernelIdeal.Gen Cert.QuantMlp
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The result function of this launch's argument arrays on core `c`. -/
abbrev res (c : Dev nD) : S16384x1024.Idx → EReal :=
  result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))

set_option maxHeartbeats 1000000 in
/-- WHAT POINT `t` WRITES BACK is block `t` of the result function. -/
theorem flushed_eq (c : Dev nD) (t : Fin cfg0.N) :
    (dats m 0 c).flushed 11 t = ((cfg0.win 11).blk t).view.read (Elt Ideal) (res m c) := by
  rw [Value.flushed11]
  unfold out0_11
  rw [View.canon_unit_zero zero_offsets]
  simp only [View.ld_unit_zero (S := S128x1024) zero_offsets, View.ld_unit_zero (S := S1024x4096) zero_offsets,
    View.ld_unit_zero (S := S1024x32) zero_offsets, View.ld_unit_zero (S := S32x4096) zero_offsets,
    View.ld_unit_zero (S := S1x4096) zero_offsets, View.ld_unit_zero (S := S4096x1024) zero_offsets,
    View.ld_unit_zero (S := S4096x32) zero_offsets, View.ld_unit_zero (S := S32x1024) zero_offsets,
    View.ld_unit_zero (S := S1x1024) zero_offsets]
  obtain ⟨l0, l1⟩ := index_11 t
  have hN : grid0.N = 128 := N_0
  have ht : t.val < 128 := by have h : t.val < grid0.N := t.isLt; omega
  funext y
  have hy0 : (y 0).val < 128 := (y 0).isLt
  have hy1 : (y 1).val < 1024 := (y 1).isLt
  have hT : t.val * 128 + (y 0).val < 16384 := by omega
  refine (Body.point_value_idx (iblk m c 0 t) (iblk m c 1 t) (iblk m c 2 t) (iblk m c 3 t) (iblk m c 4 t) (iblk m c 5 t)
    (iblk m c 6 t) (iblk m c 7 t) (iblk m c 8 t) (iblk m c 9 t) (iblk m c 10 t)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
    y ⟨t.val * 128 + (y 0).val, hT⟩
    (fun d => read_0 m c t ⟨(y 0).val, (y 0).isLt⟩ d ⟨t.val * 128 + (y 0).val, hT⟩ rfl)
    (fun d => read_1 m c t ⟨(y 0).val, (y 0).isLt⟩ d ⟨t.val * 128 + (y 0).val, hT⟩ rfl)
    (fun d o => read_2 m c t d o) (fun d r => read_3 m c t d r) (fun r o => read_4 m c t r o)
    (fun o => read_5 m c t o) (fun k => read_6 m c t k) (fun k n => read_7 m c t k n) (fun k r => read_8 m c t k r)
    (fun r n => read_9 m c t r n) (fun n => read_10 m c t n)).trans ?_
  show resultAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
      ⟨t.val * 128 + (y 0).val, _⟩ ⟨(y 1).val, _⟩
    = res m c (((cfg0.win 11).blk t).view.emb y)
  unfold res result
  refine congrArg₂ (resultAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)))
    (Fin.ext ?_) (Fin.ext ?_)
  · show t.val * 128 + (y 0).val = win0_11.index t (0 : Fin 2) * 128 + 1 * (y 0).val
    omega
  · show (y 1).val = win0_11.index t (1 : Fin 2) * 1024 + 1 * (y 1).val
    omega

/-- An index of the array is in point `t`'s block iff each coordinate is in the block's range on its axis. -/
theorem mem_blk (t : Fin cfg0.N) (i : S16384x1024.Idx) :
    i ∈ ((cfg0.win 11).blk t).view.set ↔ ∀ a : Fin 2, win0_11.index t a * S128x1024.size a ≤ (i a).val
      ∧ (i a).val < win0_11.index t a * S128x1024.size a + S128x1024.size a := by
  show i ∈ ((View.whole main_v47).slice (win0_11.rect t)).set ↔ _
  rw [View.set_slice_whole, Rect.mem_set_unit]
  exact Iff.rfl

/-- Every entry of the array is in some point's block: row `r` belongs to point `r / 128`. -/
theorem covered (i : S16384x1024.Idx) :
    ∃ t : Fin cfg0.N, (cfg0.win 11).flush t = true ∧ i ∈ ((cfg0.win 11).blk t).view.set := by
  have hN : grid0.N = 128 := N_0
  have hi0 : (i 0).val < 16384 := (i 0).isLt
  have hi1 : (i 1).val < 1024 := (i 1).isLt
  have hlt : (i 0).val / 128 < cfg0.N := by show (i 0).val / 128 < grid0.N; omega
  obtain ⟨l0, l1⟩ := index_11 ⟨(i 0).val / 128, hlt⟩
  have l0' : win0_11.index ⟨(i 0).val / 128, hlt⟩ (0 : Fin 2) = (i 0).val / 128 := l0
  refine ⟨⟨(i 0).val / 128, hlt⟩, flush0_11 _, ?_⟩
  rw [mem_blk]
  intro a
  match a with
  | ⟨0, _⟩ =>
    show win0_11.index ⟨(i 0).val / 128, hlt⟩ (0 : Fin 2) * 128 ≤ (i 0).val
      ∧ (i 0).val < win0_11.index ⟨(i 0).val / 128, hlt⟩ (0 : Fin 2) * 128 + 128
    omega
  | ⟨1, _⟩ =>
    show win0_11.index ⟨(i 0).val / 128, hlt⟩ (1 : Fin 2) * 1024 ≤ (i 1).val
      ∧ (i 1).val < win0_11.index ⟨(i 0).val / 128, hlt⟩ (1 : Fin 2) * 1024 + 1024
    omega

/-- THE ARRAY after the run is the result function of the arguments. -/
theorem final (c : Dev nD) : (dats m 0 c).arrAt 11 cfg0.N = res m c :=
  (dats m 0 c).arrAt_eq_of_cover 11 (res m c) (fun t _ => flushed_eq m c t) covered

/-- The run, read: the result array ends at the result function of the arguments, the arguments unchanged. -/
theorem run : θ_run defs (onTc (τ := τ) (main (F := Ideal))) ⟨m, fun _ => 0, ρ⟩ fun r => ∀ c : Dev nD,
      r.2.mem ((c : Thread nD τ).loc main_v47) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨(h c).1.trans (final m c), (h c).2⟩) (Value.run_blocks m ρ)

end Cert.KernelIdeal.ArrayValue

end
-- ==== Proof.RefLayer1.lean ====
/-
  The reference's first layer, entry by entry: the hidden activation at token `t` and hidden unit `o` is the hidden
  row of the specification computed from row `t` of the quantized input and of the input, and the whole
  parameter arrays.  The quantized input and the dequantized weights are kept as the arrays the reference computes:
  the kernel's program computes them by the same host operations, so they are never opened.
-/
import proofs.«180111_j4947802325522_2_alg».proof.Proof.Gen.ReferenceIdeal.Read
import proofs.«180111_j4947802325522_2_alg».proof.Proof.Spec

noncomputable section

namespace Cert.ReferenceIdeal.RefValue

open Idealize.ShloMosaic Idealize.ShloMosaic.ValueIdx Cert.ReferenceIdeal Cert.ReferenceIdeal.Gen Cert.ReferenceIdeal.Read
open Cert.LibRowBlocks Cert.QuantMlp

/-- The activation after GELU at `(t, o)`. -/
theorem ref_hidden (x0 : (⟨S16384x1024, .f32⟩ : BufTy).Contents (Elt Ideal)) (x1 : (⟨S4096x1024, .i32⟩ : BufTy).Contents (Elt Ideal)) (x2 : (⟨S4096x16, .f32⟩ : BufTy).Contents (Elt Ideal)) (x3 : (⟨S1024, .f32⟩ : BufTy).Contents (Elt Ideal)) (x4 : (⟨S32x1024, .f32⟩ : BufTy).Contents (Elt Ideal)) (x5 : (⟨S4096x32, .f32⟩ : BufTy).Contents (Elt Ideal)) (x6 : (⟨S4096, .f32⟩ : BufTy).Contents (Elt Ideal))
    (t : Fin 16384) (o : Fin 4096) :
    val_main_v43 (F := Ideal) x0 x1 x2 x3 x4 x5 x6 (ix2 t o)
      = hidden (fun d => val_main_v17 (F := Ideal) x0 x3 (ix2 t d)) (fun d => x0 (ix2 t d))
          (fun o d => val_main_v23 (F := Ideal) x1 x2 (ix2 o d)) (fun r d => x4 (ix2 r d)) (fun o r => x5 (ix2 o r))
          (fun o => x6 (ix1 o)) o := by
  have e24l : ∀ k, lidx_main_v24 (ix2 t o) k = ix2 t k := fun k => funext fun a => Fin.ext (by match a with | ⟨0, _⟩ => rfl | ⟨1, _⟩ => rfl)
  have e24r : ∀ k, ridx_main_v24 (ix2 t o) k = ix2 o k := fun k => funext fun a => Fin.ext (by match a with | ⟨0, _⟩ => rfl | ⟨1, _⟩ => rfl)
  have e26l : ∀ r, lidx_main_v26 (ix2 t o) r = ix2 t r := fun r => funext fun a => Fin.ext (by match a with | ⟨0, _⟩ => rfl | ⟨1, _⟩ => rfl)
  have e26r : ∀ r, ridx_main_v26 (ix2 t o) r = ix2 o r := fun r => funext fun a => Fin.ext (by match a with | ⟨0, _⟩ => rfl | ⟨1, _⟩ => rfl)
  have e25l : ∀ (r : Fin 32) k, lidx_main_v25 (ix2 t r) k = ix2 t k := fun r k => funext fun a => Fin.ext (by match a with | ⟨0, _⟩ => rfl | ⟨1, _⟩ => rfl)
  have e25r : ∀ (r : Fin 32) k, ridx_main_v25 (ix2 t r) k = ix2 r k := fun r k => funext fun a => Fin.ext (by match a with | ⟨0, _⟩ => rfl | ⟨1, _⟩ => rfl)
  have e29 : idx_main_v28 (idx_main_v29 (ix2 t o)) = ix1 o := funext fun a => Fin.ext (by match a with | ⟨0, _⟩ => rfl)
  simp only [val_main_v43_apply, val_main_v42_apply, val_main_v41_apply, val_main_cst_7_apply, val_main_v40_apply,
    val_main_v39_apply, val_main_cst_6_apply, val_main_v38_apply, val_main_v37_apply, val_main_v36_apply, val_main_cst_5_apply,
    val_main_v35_apply, val_main_v34_apply, val_main_v33_apply, val_main_cst_4_apply, val_main_v32_apply, val_main_v31_apply,
    val_main_v30_apply, val_main_v29_apply, val_main_v28_apply, val_main_v27_apply, val_main_v26_apply, val_main_v25_apply,
    val_main_v24_apply, e24l, e24r, e26l, e26r, e25l, e25r, e29]
  exact gelu_cube_left _

end Cert.ReferenceIdeal.RefValue

end
-- ==== Proof.RefQuant.lean ====
/-
  The reference's second quantization, entry by entry.  The hidden activation is divided by the second smoothing
  vector and each row of 4096 is viewed as 64 groups of 64, row-major: entry `k` of a row is place `k % 64` of group
  `k / 64`.  Each group's step comes from its largest magnitude, and every entry is rounded to a multiple of its
  group's step and clipped.  Read back as a row, this is the specification's quantized row of the smoothed activation.
-/
import proofs.«180111_j4947802325522_2_alg».proof.Proof.Gen.ReferenceIdeal.Read
import proofs.«180111_j4947802325522_2_alg».proof.Proof.Spec

noncomputable section

namespace Cert.ReferenceIdeal.RefValue

open Idealize.ShloMosaic Idealize.ShloMosaic.ValueIdx Cert.ReferenceIdeal Cert.ReferenceIdeal.Gen Cert.ReferenceIdeal.Read
open Cert.LibRowBlocks Cert.QuantMlp

/-- The smoothed activation in groups: place `j` of group `g` of row `t` is entry `64 g + j` of the row. -/
theorem ref_quot (x0 : (⟨S16384x1024, .f32⟩ : BufTy).Contents (Elt Ideal)) (x1 : (⟨S4096x1024, .i32⟩ : BufTy).Contents (Elt Ideal)) (x2 : (⟨S4096x16, .f32⟩ : BufTy).Contents (Elt Ideal)) (x3 : (⟨S1024, .f32⟩ : BufTy).Contents (Elt Ideal)) (x4 : (⟨S32x1024, .f32⟩ : BufTy).Contents (Elt Ideal)) (x5 : (⟨S4096x32, .f32⟩ : BufTy).Contents (Elt Ideal)) (x6 : (⟨S4096, .f32⟩ : BufTy).Contents (Elt Ideal)) (x9 : (⟨S4096, .f32⟩ : BufTy).Contents (Elt Ideal)) (t : Fin 16384) (g j : Fin 64) :
    val_main_v47 (F := Ideal) x0 x1 x2 x3 x4 x5 x6 x9 (ix3 t g j)
      = Ideal.div (val_main_v43 (F := Ideal) x0 x1 x2 x3 x4 x5 x6 (ix2 t (at64 g j))) (x9 (ix1 (at64 g j))) := by
  have e47 : idx_main_v47 (ix3 t g j) = ix2 t (at64 g j) := funext fun a => Fin.ext (by
    have ht := t.isLt; have hg := g.isLt; have hj := j.isLt
    match a with
    | ⟨0, _⟩ => show ((t.val * 64 + g.val) * 64 + j.val) / 4096 = t.val; omega
    | ⟨1, _⟩ => show ((t.val * 64 + g.val) * 64 + j.val) % 4096 = g.val * 64 + j.val; omega)
  have e45 : idx_main_v44 (idx_main_v45 (ix2 t (at64 g j))) = ix1 (at64 g j) :=
    funext fun a => Fin.ext (by match a with | ⟨0, _⟩ => rfl)
  rw [val_main_v47_apply, e47, val_main_v46_apply, val_main_v45_apply, val_main_v44_apply, e45]
  rfl

/-- A group's largest magnitude, from −∞. -/
theorem ref_gmax (x0 : (⟨S16384x1024, .f32⟩ : BufTy).Contents (Elt Ideal)) (x1 : (⟨S4096x1024, .i32⟩ : BufTy).Contents (Elt Ideal)) (x2 : (⟨S4096x16, .f32⟩ : BufTy).Contents (Elt Ideal)) (x3 : (⟨S1024, .f32⟩ : BufTy).Contents (Elt Ideal)) (x4 : (⟨S32x1024, .f32⟩ : BufTy).Contents (Elt Ideal)) (x5 : (⟨S4096x32, .f32⟩ : BufTy).Contents (Elt Ideal)) (x6 : (⟨S4096, .f32⟩ : BufTy).Contents (Elt Ideal)) (x9 : (⟨S4096, .f32⟩ : BufTy).Contents (Elt Ideal)) (t : Fin 16384) (g : Fin 64) :
    val_main_v49 (F := Ideal) x0 x1 x2 x3 x4 x5 x6 x9 (ix2 t g)
      = gmax (fun j => mag (val_main_v47 (F := Ideal) x0 x1 x2 x3 x4 x5 x6 x9 (ix3 t g j))) := by
  unfold val_main_v49
  refine (group_max_host (val_main_v48 (F := Ideal) x0 x1 x2 x3 x4 x5 x6 x9) (val_main_cst_8 (F := Ideal)) reducesTo_S16384x64x64_S16384x64_d2
    (by decide) h_S_ t g).trans ?_
  simp only [val_main_v48_apply, val_main_cst_8_apply]
  rfl

/-- A group's step. -/
theorem ref_step (x0 : (⟨S16384x1024, .f32⟩ : BufTy).Contents (Elt Ideal)) (x1 : (⟨S4096x1024, .i32⟩ : BufTy).Contents (Elt Ideal)) (x2 : (⟨S4096x16, .f32⟩ : BufTy).Contents (Elt Ideal)) (x3 : (⟨S1024, .f32⟩ : BufTy).Contents (Elt Ideal)) (x4 : (⟨S32x1024, .f32⟩ : BufTy).Contents (Elt Ideal)) (x5 : (⟨S4096x32, .f32⟩ : BufTy).Contents (Elt Ideal)) (x6 : (⟨S4096, .f32⟩ : BufTy).Contents (Elt Ideal)) (x9 : (⟨S4096, .f32⟩ : BufTy).Contents (Elt Ideal)) (t : Fin 16384) (g : Fin 64) :
    val_main_v54 (F := Ideal) x0 x1 x2 x3 x4 x5 x6 x9 (ix3 t g (0 : Fin 1))
      = step (fun j => Ideal.div (val_main_v43 (F := Ideal) x0 x1 x2 x3 x4 x5 x6 (ix2 t (at64 g j))) (x9 (ix1 (at64 g j)))) := by
  have e50 : idx_main_v50 (ix3 t g (0 : Fin 1)) = ix2 t g :=
    funext fun a => Fin.ext (by match a with | ⟨0, _⟩ => rfl | ⟨1, _⟩ => rfl)
  rw [val_main_v54_apply, val_main_v53_apply, val_main_cst_10_apply, val_main_v52_apply, val_main_v51_apply,
    val_main_cst_9_apply, val_main_v50_apply, e50, ref_gmax]
  simp only [ref_quot]
  rfl

/-- The quantized row, read back from its groups. -/
theorem ref_quant (x0 : (⟨S16384x1024, .f32⟩ : BufTy).Contents (Elt Ideal)) (x1 : (⟨S4096x1024, .i32⟩ : BufTy).Contents (Elt Ideal)) (x2 : (⟨S4096x16, .f32⟩ : BufTy).Contents (Elt Ideal)) (x3 : (⟨S1024, .f32⟩ : BufTy).Contents (Elt Ideal)) (x4 : (⟨S32x1024, .f32⟩ : BufTy).Contents (Elt Ideal)) (x5 : (⟨S4096x32, .f32⟩ : BufTy).Contents (Elt Ideal)) (x6 : (⟨S4096, .f32⟩ : BufTy).Contents (Elt Ideal)) (x9 : (⟨S4096, .f32⟩ : BufTy).Contents (Elt Ideal)) (t : Fin 16384) (k : Fin 4096) :
    val_main_v61 (F := Ideal) x0 x1 x2 x3 x4 x5 x6 x9 (ix2 t k)
      = quantRow (fun k => Ideal.div (val_main_v43 (F := Ideal) x0 x1 x2 x3 x4 x5 x6 (ix2 t k)) (x9 (ix1 k))) k := by
  have e61 : idx_main_v61 (ix2 t k) = ix3 t (grp64 k) (pos64 k) := funext fun a => Fin.ext (by
    have ht := t.isLt; have hk := k.isLt
    match a with
    | ⟨0, _⟩ => show (t.val * 4096 + k.val) / 4096 = t.val; omega
    | ⟨1, _⟩ => show (t.val * 4096 + k.val) / 64 % 64 = k.val / 64; omega
    | ⟨2, _⟩ => show (t.val * 4096 + k.val) % 64 = k.val % 64; omega)
  have e55 : idx_main_v55 (ix3 t (grp64 k) (pos64 k)) = ix3 t (grp64 k) (0 : Fin 1) :=
    funext fun a => Fin.ext (by match a with | ⟨0, _⟩ => rfl | ⟨1, _⟩ => rfl | ⟨2, _⟩ => rfl)
  have e59 : idx_main_v59 (ix3 t (grp64 k) (pos64 k)) = ix3 t (grp64 k) (0 : Fin 1) :=
    funext fun a => Fin.ext (by match a with | ⟨0, _⟩ => rfl | ⟨1, _⟩ => rfl | ⟨2, _⟩ => rfl)
  rw [val_main_v61_apply, e61, val_main_v60_apply, val_main_v59_apply, e59, val_main_v58_apply, val_main_call3_v4_apply,
    val_main_call3_v3_apply, val_main_cst_12_apply, val_main_call3_v2_apply, val_main_call3_v1_apply, val_main_call3_v0_apply,
    val_main_cst_11_apply, val_main_v57_apply, val_main_v56_apply, val_main_v55_apply, e55, ref_step, ref_quot, at64_grp_pos]
  rfl

end Cert.ReferenceIdeal.RefValue

end
-- ==== Proof.RefOut.lean ====
/-
  The reference's result, entry by entry: entry `(t, n)` is the output row of the specification computed from row `t`
  of the hidden activation — the quantized smoothed row against the second weight matrix, the rank-32 correction of
  the unquantized row, and the bias.
-/
import proofs.«180111_j4947802325522_2_alg».proof.Proof.Gen.ReferenceIdeal.Read
import proofs.«180111_j4947802325522_2_alg».proof.Proof.Spec
import proofs.«180111_j4947802325522_2_alg».proof.Proof.RefQuant

noncomputable section

namespace Cert.ReferenceIdeal.RefValue

open Idealize.ShloMosaic Idealize.ShloMosaic.ValueIdx Cert.ReferenceIdeal Cert.ReferenceIdeal.Gen Cert.ReferenceIdeal.Read
open Cert.LibRowBlocks Cert.QuantMlp

/-- The reference's result at `(t, n)`. -/
theorem ref_output (x0 : (⟨S16384x1024, .f32⟩ : BufTy).Contents (Elt Ideal)) (x1 : (⟨S4096x1024, .i32⟩ : BufTy).Contents (Elt Ideal)) (x2 : (⟨S4096x16, .f32⟩ : BufTy).Contents (Elt Ideal)) (x3 : (⟨S1024, .f32⟩ : BufTy).Contents (Elt Ideal)) (x4 : (⟨S32x1024, .f32⟩ : BufTy).Contents (Elt Ideal)) (x5 : (⟨S4096x32, .f32⟩ : BufTy).Contents (Elt Ideal)) (x6 : (⟨S4096, .f32⟩ : BufTy).Contents (Elt Ideal)) (x7 : (⟨S1024x4096, .i32⟩ : BufTy).Contents (Elt Ideal)) (x8 : (⟨S1024x64, .f32⟩ : BufTy).Contents (Elt Ideal)) (x9 : (⟨S4096, .f32⟩ : BufTy).Contents (Elt Ideal)) (x10 : (⟨S32x4096, .f32⟩ : BufTy).Contents (Elt Ideal)) (x11 : (⟨S1024x32, .f32⟩ : BufTy).Contents (Elt Ideal)) (x12 : (⟨S1024, .f32⟩ : BufTy).Contents (Elt Ideal))
    (t : Fin 16384) (n : Fin 1024) :
    val_main_v74 (F := Ideal) x0 x1 x2 x3 x4 x5 x6 x7 x8 x9 x10 x11 x12 (ix2 t n)
      = output (fun k => val_main_v43 (F := Ideal) x0 x1 x2 x3 x4 x5 x6 (ix2 t k)) (fun k => x9 (ix1 k))
          (fun n k => val_main_v67 (F := Ideal) x7 x8 (ix2 n k)) (fun r k => x10 (ix2 r k)) (fun n r => x11 (ix2 n r))
          (fun n => x12 (ix1 n)) n := by
  have e68l : ∀ k, lidx_main_v68 (ix2 t n) k = ix2 t k := fun k => funext fun a => Fin.ext (by match a with | ⟨0, _⟩ => rfl | ⟨1, _⟩ => rfl)
  have e68r : ∀ k, ridx_main_v68 (ix2 t n) k = ix2 n k := fun k => funext fun a => Fin.ext (by match a with | ⟨0, _⟩ => rfl | ⟨1, _⟩ => rfl)
  have e70l : ∀ r, lidx_main_v70 (ix2 t n) r = ix2 t r := fun r => funext fun a => Fin.ext (by match a with | ⟨0, _⟩ => rfl | ⟨1, _⟩ => rfl)
  have e70r : ∀ r, ridx_main_v70 (ix2 t n) r = ix2 n r := fun r => funext fun a => Fin.ext (by match a with | ⟨0, _⟩ => rfl | ⟨1, _⟩ => rfl)
  have e69l : ∀ (r : Fin 32) k, lidx_main_v69 (ix2 t r) k = ix2 t k := fun r k => funext fun a => Fin.ext (by match a with | ⟨0, _⟩ => rfl | ⟨1, _⟩ => rfl)
  have e69r : ∀ (r : Fin 32) k, ridx_main_v69 (ix2 t r) k = ix2 r k := fun r k => funext fun a => Fin.ext (by match a with | ⟨0, _⟩ => rfl | ⟨1, _⟩ => rfl)
  have e73 : idx_main_v72 (idx_main_v73 (ix2 t n)) = ix1 n := funext fun a => Fin.ext (by match a with | ⟨0, _⟩ => rfl)
  simp only [val_main_v74_apply, val_main_v73_apply, val_main_v72_apply, val_main_v71_apply, val_main_v70_apply,
    val_main_v69_apply, val_main_v68_apply, e68l, e68r, e70l, e70r, e69l, e69r, e73, ref_quant]
  rfl

end Cert.ReferenceIdeal.RefValue

end
-- ==== Proof.RefResult.lean ====
/-
  The reference computes the result function: its last stage, read at every entry, is the specification's output row
  of the specification's hidden row.
-/
import proofs.«180111_j4947802325522_2_alg».proof.Proof.Gen.ReferenceIdeal.Read
import proofs.«180111_j4947802325522_2_alg».proof.Proof.Spec
import proofs.«180111_j4947802325522_2_alg».proof.Proof.RefLayer1
import proofs.«180111_j4947802325522_2_alg».proof.Proof.RefOut
import proofs.«180111_j4947802325522_2_alg».proof.Proof.Result

noncomputable section

namespace Cert.ReferenceIdeal.RefValue

open Idealize.ShloMosaic Idealize.ShloMosaic.ValueIdx Cert.ReferenceIdeal Cert.ReferenceIdeal.Gen Cert.ReferenceIdeal.Read
open Cert.LibRowBlocks Cert.QuantMlp

/-- The reference's result array is the result function of its arguments. -/
theorem ref_result (x0 : (⟨S16384x1024, .f32⟩ : BufTy).Contents (Elt Ideal)) (x1 : (⟨S4096x1024, .i32⟩ : BufTy).Contents (Elt Ideal)) (x2 : (⟨S4096x16, .f32⟩ : BufTy).Contents (Elt Ideal)) (x3 : (⟨S1024, .f32⟩ : BufTy).Contents (Elt Ideal)) (x4 : (⟨S32x1024, .f32⟩ : BufTy).Contents (Elt Ideal)) (x5 : (⟨S4096x32, .f32⟩ : BufTy).Contents (Elt Ideal)) (x6 : (⟨S4096, .f32⟩ : BufTy).Contents (Elt Ideal)) (x7 : (⟨S1024x4096, .i32⟩ : BufTy).Contents (Elt Ideal)) (x8 : (⟨S1024x64, .f32⟩ : BufTy).Contents (Elt Ideal)) (x9 : (⟨S4096, .f32⟩ : BufTy).Contents (Elt Ideal)) (x10 : (⟨S32x4096, .f32⟩ : BufTy).Contents (Elt Ideal)) (x11 : (⟨S1024x32, .f32⟩ : BufTy).Contents (Elt Ideal)) (x12 : (⟨S1024, .f32⟩ : BufTy).Contents (Elt Ideal)) :
    val_main_v74 (F := Ideal) x0 x1 x2 x3 x4 x5 x6 x7 x8 x9 x10 x11 x12 = result x0 x1 x2 x3 x4 x5 x6 x7 x8 x9 x10 x11 x12 := by
  funext i
  obtain ⟨t, n, rfl⟩ : ∃ (t : Fin 16384) (n : Fin 1024), i = ix2 t n := ⟨i 0, i 1, eq_ix2 i⟩
  rw [ref_output, result_at]
  simp only [ref_hidden]
  rfl

end Cert.ReferenceIdeal.RefValue

end
-- ==== Proof.lean ====
/-
  The kernel and the reference compute one function.

  Both programs take a batch of 16384 token rows `x` and the parameters of a two-layer block: per layer an integer
  weight matrix with per-group scales, a smoothing vector, a rank-32 pair `ld`, `lu` and a bias.  A layer sends a row
  `v` to `Q(v / smooth) · Wᵀ + (v · ldᵀ) · luᵀ + b`, where `W` is the integer matrix times its scales and `Q`
  quantizes a row in groups of 64: each group's step is a seventh of its largest magnitude (at least 1e-6 / 7), and
  each entry becomes the nearest multiple of the step, ties to even, clipped to −8 … 7 steps.  Between the layers
  sits the tanh form of GELU.

  The reference does this on whole arrays.  The kernel's program does the first quantization and the weight
  scaling on whole arrays too, by the same operations, transposes the matrices, and then runs the rest on blocks of 128
  token rows, one block per grid point, with every parameter resident.  Over the extended reals a change of float
  format is the identity, a matrix product into a zero accumulator is the plain sum over the contracted index, and a
  maximum over a group is one fold of `max` on either side; so at every entry `(t, n)` both results are the same
  expression in row `t` of `x` and the parameters (`Cert.QuantMlp.result`).  The one algebraic step is that the
  reference cubes as `(u · u) · u` and the kernel as `u · (u · u)`.  No law used needs finiteness, so the
  precondition is never opened.

  The three frames are the generated ones (the reference's is its generated run with the result dropped); the ideal
  pass rewrote nothing, so there is nothing to preserve.
-/
import proofs.«180111_j4947802325522_2_alg».proof.Defs
import proofs.«180111_j4947802325522_2_alg».proof.Proof.Gen.Kernel
import proofs.«180111_j4947802325522_2_alg».proof.Proof.Gen.Kernel.Skeleton
import proofs.«180111_j4947802325522_2_alg».proof.Proof.Gen.Kernel.Launch
import proofs.«180111_j4947802325522_2_alg».proof.Proof.Gen.Kernel.Points
import proofs.«180111_j4947802325522_2_alg».proof.Proof.Gen.Kernel.Frame
import proofs.«180111_j4947802325522_2_alg».proof.Proof.Gen.KernelIdeal
import proofs.«180111_j4947802325522_2_alg».proof.Proof.Gen.KernelIdeal.Skeleton
import proofs.«180111_j4947802325522_2_alg».proof.Proof.Gen.KernelIdeal.Launch
import proofs.«180111_j4947802325522_2_alg».proof.Proof.Gen.KernelIdeal.Points
import proofs.«180111_j4947802325522_2_alg».proof.Proof.Gen.KernelIdeal.Frame
import proofs.«180111_j4947802325522_2_alg».proof.Proof.Gen.ReferenceIdeal
import proofs.«180111_j4947802325522_2_alg».proof.Proof.Gen.Pre_finite_inputs
import proofs.«180111_j4947802325522_2_alg».proof.Proof.Gen.KernelIdeal.Value
import proofs.«180111_j4947802325522_2_alg».proof.Proof.Gen.ReferenceIdeal.Run
import proofs.«180111_j4947802325522_2_alg».proof.Proof.Gen.ReferenceIdeal.Read
import proofs.«180111_j4947802325522_2_alg».proof.Proof.BlockValue
import proofs.«180111_j4947802325522_2_alg».proof.Proof.RefResult
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's run, its result forgotten. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the thirteen arguments both runs end with the result array at the result function of
    the arguments: the kernel's by its blocks covering the array, the reference's by its last stage read entry by
    entry. -/
theorem algebraic : Cert.algebraic_KernelIdeal_ReferenceIdeal := by
  intro m ρ m' ρ' _ hagree
  refine ⟨fun c => Cert.KernelIdeal.ArrayValue.res m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v74_eq, Cert.ReferenceIdeal.RefValue.ref_result]
  obtain ⟨h0, h1, h2, h3, h4, h5, h6, h7, h8, h9, h10, h11, h12⟩ := hagree c
  rw [h0, h1, h2, h3, h4, h5, h6, h7, h8, h9, h10, h11, h12]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
